-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S700000x32 : Shape := ⟨2, ![700000, 32]⟩
abbrev S2x4000000 : Shape := ⟨2, ![2, 4000000]⟩
abbrev S32x64 : Shape := ⟨2, ![32, 64]⟩
abbrev S64 : Shape := ⟨1, ![64]⟩
abbrev S64x64 : Shape := ⟨2, ![64, 64]⟩
abbrev S896x1 : Shape := ⟨2, ![896, 1]⟩
abbrev S1 : Shape := ⟨1, ![1]⟩
abbrev S_ : Shape := ⟨0, ![]⟩

class Facts : Prop where
  bcast_S_S700000x32 : S_.BroadcastsInDim S700000x32 (![] : Fin 0 → Fin S700000x32.rank)
  reducesTo_S700000x32_S_d0_1 : S700000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S896x1 : S_.BroadcastsInDim S896x1 (![] : Fin 0 → Fin S896x1.rank)
  reducesTo_S896x1_S_d0_1 : S896x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S896x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S896x1 .f32 := Host.absf main_arg6
  let main_cst_8 : FVec F S_ .f32 := constant S_ .f32 0x7F800000#32
  let main_v25 : FVec F S896x1 .f32 := broadcastInDim S896x1 ![] bcast_S_S896x1 main_cst_8
  let main_v26 : IVec S896x1 1 := cmpf .olt main_v24 main_v25
  let main_c_9 : IVec S_ 1 := constantI S_ 1 1#1
  let main_v27 : IVec S_ 1 := (fun x v => Host.reduce IntOp.andi x v reducesTo_S896x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S700000x32 .f32) (main_arg1 : IVec S2x4000000 32) (main_arg2 : FVec F S32x64 .f32) (main_arg3 : FVec F S64 .f32) (main_arg4 : FVec F S64x64 .f32) (main_arg5 : FVec F S64 .f32) (main_arg6 : FVec F S896x1 .f32) (main_arg7 : FVec F S1 .f32) : IVec S_ 1 :=
  let main_v0 : FVec F S700000x32 .f32 := Host.absf main_arg0
  let main_cst : FVec F S_ .f32 := constant S_ .f32 0x7F800000#32
  let main_v1 : FVec F S700000x32 .f32 := broadcastInDim S700000x32 ![] bcast_S_S700000x32 main_cst
  let main_v2 : IVec S700000x32 1 := cmpf .olt main_v0 main_v1
  let main_c : IVec S_ 1 := constantI S_ 1 1#1
  let main_v3 : IVec S_ 1 := (fun x v => Host.reduce IntOp.andi x v reducesTo_S700000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S700000x32 : Shape := ⟨2, ![700000, 32]⟩
abbrev S2x4000000 : Shape := ⟨2, ![2, 4000000]⟩
abbrev S32x64 : Shape := ⟨2, ![32, 64]⟩
abbrev S64 : Shape := ⟨1, ![64]⟩
abbrev S64x64 : Shape := ⟨2, ![64, 64]⟩
abbrev S896x1 : Shape := ⟨2, ![896, 1]⟩
abbrev S1 : Shape := ⟨1, ![1]⟩
abbrev S1x4000000 : Shape := ⟨2, ![1, 4000000]⟩
abbrev S4000000 : Shape := ⟨1, ![4000000]⟩
abbrev S700000x64 : Shape := ⟨2, ![700000, 64]⟩
abbrev S7000x32 : Shape := ⟨2, ![7000, 32]⟩
abbrev S7000x64 : Shape := ⟨2, ![7000, 64]⟩
abbrev S_ : Shape := ⟨0, ![]⟩
abbrev S700000 : Shape := ⟨1, ![700000]⟩
abbrev S4000000x1 : Shape := ⟨2, ![4000000, 1]⟩
abbrev S4000000x64 : Shape := ⟨2, ![4000000, 64]⟩
abbrev S700000x1 : Shape := ⟨2, ![700000, 1]⟩
abbrev S1x64 : Shape := ⟨2, ![1, 64]⟩
abbrev S50000x896 : Shape := ⟨2, ![50000, 896]⟩
abbrev S50000x1 : Shape := ⟨2, ![50000, 1]⟩
abbrev S1000x896 : Shape := ⟨2, ![1000, 896]⟩
abbrev S1000x1 : Shape := ⟨2, ![1000, 1]⟩
abbrev S1x1 : Shape := ⟨2, ![1, 1]⟩

abbrev nBuf : Space → Nat
  | .hbm => 117
  | .vmem => 22
  | .smem => 0
  | _ => 0

abbrev bufTy : (tb : Table) → Fin (tcTables nBuf tb) → BufTy
  | .hbm, ⟨0, _⟩ => ⟨S700000x32, .f32⟩
  | .hbm, ⟨1, _⟩ => ⟨S2x4000000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S896x1, .f32⟩
  | .hbm, ⟨7, _⟩ => ⟨S1, .f32⟩
  | .hbm, ⟨8, _⟩ => ⟨S1x4000000, .i32⟩
  | .hbm, ⟨9, _⟩ => ⟨S4000000, .i32⟩
  | .hbm, ⟨10, _⟩ => ⟨S1x4000000, .i32⟩
  | .hbm, ⟨11, _⟩ => ⟨S4000000, .i32⟩
  | .hbm, ⟨12, _⟩ => ⟨S700000x64, .f32⟩
  | .hbm, ⟨13, _⟩ => ⟨S_, .f32⟩
  | .hbm, ⟨14, _⟩ => ⟨S4000000, .f32⟩
  | .hbm, ⟨15, _⟩ => ⟨S_, .f32⟩
  | .hbm, ⟨16, _⟩ => ⟨S700000, .f32⟩
  | .hbm, ⟨17, _⟩ => ⟨S4000000x1, .i32⟩
  | .hbm, ⟨18, _⟩ => ⟨S700000, .f32⟩
  | .hbm, ⟨19, _⟩ => ⟨S_, .f32⟩
  | .hbm, ⟨20, _⟩ => ⟨S700000, .f32⟩
  | .hbm, ⟨21, _⟩ => ⟨S700000, .f32⟩
  | .hbm, ⟨22, _⟩ => ⟨S700000, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000, .f32⟩
  | .hbm, ⟨32, _⟩ => ⟨S_, .i32⟩
  | .hbm, ⟨33, _⟩ => ⟨S4000000, .i32⟩
  | .hbm, ⟨34, _⟩ => ⟨S4000000, .i1⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S4000000, .i32⟩
  | .hbm, ⟨39, _⟩ => ⟨S4000000x1, .i32⟩
  | .hbm, ⟨40, _⟩ => ⟨S4000000, .f32⟩
  | .hbm, ⟨41, _⟩ => ⟨S4000000, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000x64, .f32⟩
  | .hbm, ⟨51, _⟩ => ⟨S4000000x1, .f32⟩
  | .hbm, ⟨52, _⟩ => ⟨S4000000x64, .f32⟩
  | .hbm, ⟨53, _⟩ => ⟨S4000000x64, .f32⟩
  | .hbm, ⟨54, _⟩ => ⟨S_, .f32⟩
  | .hbm, ⟨55, _⟩ => ⟨S700000x64, .f32⟩
  | .hbm, ⟨56, _⟩ => ⟨S4000000x1, .i32⟩
  | .hbm, ⟨57, _⟩ => ⟨S700000x64, .f32⟩
  | .hbm, ⟨58, _⟩ => ⟨S700000, .f32⟩
  | .hbm, ⟨59, _⟩ => ⟨S700000x1, .f32⟩
  | .hbm, ⟨60, _⟩ => ⟨S700000x64, .f32⟩
  | .hbm, ⟨61, _⟩ => ⟨S700000x64, .f32⟩
  | .hbm, ⟨62, _⟩ => ⟨S700000x64, .f32⟩
  | .hbm, ⟨63, _⟩ => ⟨S700000x64, .f32⟩
  | .hbm, ⟨64, _⟩ => ⟨S_, .f32⟩
  | .hbm, ⟨65, _⟩ => ⟨S4000000, .f32⟩
  | .hbm, ⟨66, _⟩ => ⟨S_, .f32⟩
  | .hbm, ⟨67, _⟩ => ⟨S700000, .f32⟩
  | .hbm, ⟨68, _⟩ => ⟨S4000000x1, .i32⟩
  | .hbm, ⟨69, _⟩ => ⟨S700000, .f32⟩
  | .hbm, ⟨70, _⟩ => ⟨S_, .f32⟩
  | .hbm, ⟨71, _⟩ => ⟨S700000, .f32⟩
  | .hbm, ⟨72, _⟩ => ⟨S700000, .f32⟩
  | .hbm, ⟨73, _⟩ => ⟨S700000, .f32⟩
  | .hbm, ⟨74, _⟩ => ⟨S_, .i32⟩
  | .hbm, ⟨75, _⟩ => ⟨S4000000, .i32⟩
  | .hbm, ⟨76, _⟩ => ⟨S4000000, .i1⟩
  | .hbm, ⟨77, _⟩ => ⟨S_, .i32⟩
  | .hbm, ⟨78, _⟩ => ⟨S4000000, .i32⟩
  | .hbm, ⟨79, _⟩ => ⟨S4000000, .i32⟩
  | .hbm, ⟨80, _⟩ => ⟨S4000000, .i32⟩
  | .hbm, ⟨81, _⟩ => ⟨S4000000x1, .i32⟩
  | .hbm, ⟨82, _⟩ => ⟨S4000000, .f32⟩
  | .hbm, ⟨83, _⟩ => ⟨S_, .i32⟩
  | .hbm, ⟨84, _⟩ => ⟨S4000000, .i32⟩
  | .hbm, ⟨85, _⟩ => ⟨S4000000, .i1⟩
  | .hbm, ⟨86, _⟩ => ⟨S_, .i32⟩
  | .hbm, ⟨87, _⟩ => ⟨S4000000, .i32⟩
  | .hbm, ⟨88, _⟩ => ⟨S4000000, .i32⟩
  | .hbm, ⟨89, _⟩ => ⟨S4000000, .i32⟩
  | .hbm, ⟨90, _⟩ => ⟨S4000000x1, .i32⟩
  | .hbm, ⟨91, _⟩ => ⟨S4000000, .f32⟩
  | .hbm, ⟨92, _⟩ => ⟨S4000000, .f32⟩
  | .hbm, ⟨93, _⟩ => ⟨S_, .i32⟩
  | .hbm, ⟨94, _⟩ => ⟨S4000000, .i32⟩
  | .hbm, ⟨95, _⟩ => ⟨S4000000, .i1⟩
  | .hbm, ⟨96, _⟩ => ⟨S_, .i32⟩
  | .hbm, ⟨97, _⟩ => ⟨S4000000, .i32⟩
  | .hbm, ⟨98, _⟩ => ⟨S4000000, .i32⟩
  | .hbm, ⟨99, _⟩ => ⟨S4000000, .i32⟩
  | .hbm, ⟨100, _⟩ => ⟨S4000000x1, .i32⟩
  | .hbm, ⟨101, _⟩ => ⟨S4000000x64, .f32⟩
  | .hbm, ⟨102, _⟩ => ⟨S4000000x1, .f32⟩
  | .hbm, ⟨103, _⟩ => ⟨S4000000x64, .f32⟩
  | .hbm, ⟨104, _⟩ => ⟨S4000000x64, .f32⟩
  | .hbm, ⟨105, _⟩ => ⟨S_, .f32⟩
  | .hbm, ⟨106, _⟩ => ⟨S700000x64, .f32⟩
  | .hbm, ⟨107, _⟩ => ⟨S4000000x1, .i32⟩
  | .hbm, ⟨108, _⟩ => ⟨S700000x64, .f32⟩
  | .hbm, ⟨109, _⟩ => ⟨S700000, .f32⟩
  | .hbm, ⟨110, _⟩ => ⟨S700000x1, .f32⟩
  | .hbm, ⟨111, _⟩ => ⟨S700000x64, .f32⟩
  | .hbm, ⟨112, _⟩ => ⟨S700000x64, .f32⟩
  | .hbm, ⟨113, _⟩ => ⟨S700000x64, .f32⟩
  | .hbm, ⟨114, _⟩ => ⟨S700000x64, .f32⟩
  | .hbm, ⟨115, _⟩ => ⟨S50000x896, .f32⟩
  | .hbm, ⟨116, _⟩ => ⟨S50000x1, .f32⟩
  | .local _ .vmem, ⟨0, _⟩ => ⟨S7000x32, .f32⟩
  | .local _ .vmem, ⟨1, _⟩ => ⟨S7000x32, .f32⟩
  | .local _ .vmem, ⟨2, _⟩ => ⟨S32x64, .f32⟩
  | .local _ .vmem, ⟨3, _⟩ => ⟨S7000x64, .f32⟩
  | .local _ .vmem, ⟨4, _⟩ => ⟨S7000x64, .f32⟩
  | .local _ .vmem, ⟨5, _⟩ => ⟨S7000x64, .f32⟩
  | .local _ .vmem, ⟨6, _⟩ => ⟨S7000x64, .f32⟩
  | .local _ .vmem, ⟨7, _⟩ => ⟨S64, .f32⟩
  | .local _ .vmem, ⟨8, _⟩ => ⟨S64x64, .f32⟩
  | .local _ .vmem, ⟨9, _⟩ => ⟨S7000x64, .f32⟩
  | .local _ .vmem, ⟨10, _⟩ => ⟨S7000x64, .f32⟩
  | .local _ .vmem, ⟨11, _⟩ => ⟨S7000x64, .f32⟩
  | .local _ .vmem, ⟨12, _⟩ => ⟨S7000x64, .f32⟩
  | .local _ .vmem, ⟨13, _⟩ => ⟨S64, .f32⟩
  | .local _ .vmem, ⟨14, _⟩ => ⟨S7000x64, .f32⟩
  | .local _ .vmem, ⟨15, _⟩ => ⟨S7000x64, .f32⟩
  | .local _ .vmem, ⟨16, _⟩ => ⟨S1000x896, .f32⟩
  | .local _ .vmem, ⟨17, _⟩ => ⟨S1000x896, .f32⟩
  | .local _ .vmem, ⟨18, _⟩ => ⟨S896x1, .f32⟩
  | .local _ .vmem, ⟨19, _⟩ => ⟨S1, .f32⟩
  | .local _ .vmem, ⟨20, _⟩ => ⟨S1000x1, .f32⟩
  | .local _ .vmem, ⟨21, _⟩ => ⟨S1000x1, .f32⟩
  | _, _ => ⟨S700000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S7000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S7000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S7000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S7000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x896 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S896x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  inb_S7000x32_S7000x32_0_0 : ∀ a, (![0, 0] : Fin 2 → Nat) a + S7000x32.size a ≤ S7000x32.size a
  h_S7000x32 : 0 < S7000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S7000x64_S7000x64_0_0 : ∀ a, (![0, 0] : Fin 2 → Nat) a + S7000x64.size a ≤ S7000x64.size a
  h_S7000x64 : 0 < S7000x64.numel
  bcast_S_S4000000 : S_.BroadcastsInDim S4000000 (![] : Fin 0 → Fin S4000000.rank)
  bcast_S_S700000 : S_.BroadcastsInDim S700000 (![] : Fin 0 → Fin S700000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S700000x64 : S_.BroadcastsInDim S700000x64 (![] : Fin 0 → Fin S700000x64.rank)
  bcast_S700000_S700000x1_0 : S700000.BroadcastsInDim S700000x1 (![0] : Fin 1 → Fin S700000x1.rank)
  bcast_S700000x1_S700000x64_0_1 : S700000x1.BroadcastsInDim S700000x64 (![0, 1] : Fin 2 → Fin S700000x64.rank)
  shapeCasts_S7000x64_S7000x64 : S7000x64.ShapeCasts S7000x64
  inb_S64_S64_0 : ∀ a, (![0] : Fin 1 → Nat) a + S64.size a ≤ S64.size a
  h_S64 : 0 < S64.numel
  shapeCasts_S64_S1x64 : S64.ShapeCasts S1x64
  broadcasts_S1x64_S7000x64 : S1x64.Broadcasts S7000x64
  inb_S64x64_S64x64_0_0 : ∀ a, (![0, 0] : Fin 2 → Nat) a + S64x64.size a ≤ S64x64.size a
  h_S64x64 : 0 < S64x64.numel
  shapeCasts_S700000x64_S50000x896 : S700000x64.ShapeCasts S50000x896
  inb_S1000x896_S1000x896_0_0 : ∀ a, (![0, 0] : Fin 2 → Nat) a + S1000x896.size a ≤ S1000x896.size a
  h_S1000x896 : 0 < S1000x896.numel
  shapeCasts_S1000x896_S1000x896 : S1000x896.ShapeCasts S1000x896
  inb_S896x1_S896x1_0_0 : ∀ a, (![0, 0] : Fin 2 → Nat) a + S896x1.size a ≤ S896x1.size a
  h_S896x1 : 0 < S896x1.numel
  inb_S1_S1_0 : ∀ a, (![0] : Fin 1 → Nat) a + S1.size a ≤ S1.size a
  h_S1 : 0 < S1.numel
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  dot_S7000x32_S32x64_S7000x64_1_0_0_1_n_n_wf : DotDims.WF S7000x32 S32x64 S7000x64 [1] [0] [0] [1] [] []
  scatter_S700000_S4000000x1_S4000000_n_0_0_1_wf : ScatterDims.WF S700000 S4000000x1 S4000000 [] [0] [0] 1
  gather_S700000_S4000000x1_S4000000_n_0_n_n_0_1_1_wf : GatherDims.WF S700000 S4000000x1 S4000000 [] [0] [] [0] [] 1 ![1]
  gather_S700000x64_S4000000x1_S4000000x64_1_0_n_n_0_1_164_wf : GatherDims.WF S700000x64 S4000000x1 S4000000x64 [1] [0] [] [0] [] 1 ![1, 64]
  scatter_S700000x64_S4000000x1_S4000000x64_1_0_0_1_wf : ScatterDims.WF S700000x64 S4000000x1 S4000000x64 [1] [0] [0] 1
  dot_S7000x64_S64x64_S7000x64_1_0_0_1_n_n_wf : DotDims.WF S7000x64 S64x64 S7000x64 [1] [0] [0] [1] [] []
  dot_S1000x896_S896x1_S1000x1_1_0_0_1_n_n_wf : DotDims.WF S1000x896 S896x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7000x32.size a ≤ S700000x32.size a
  hwx0_0 : ∀ i : grid0.Coords, EltTy.bits .f32 = 32 ∨ (Rect.block (s := S700000x32) S7000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7000x64.size a ≤ S700000x64.size a
  hwx0_2 : ∀ i : grid0.Coords, EltTy.bits .f32 = 32 ∨ (Rect.block (s := S700000x64) S7000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S7000x64.size a ≤ S700000x64.size a
  hwx1_0 : ∀ i : grid1.Coords, EltTy.bits .f32 = 32 ∨ (Rect.block (s := S700000x64) S7000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S7000x64.size a ≤ S700000x64.size a
  hwx1_3 : ∀ i : grid1.Coords, EltTy.bits .f32 = 32 ∨ (Rect.block (s := S700000x64) S7000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S7000x64.size a ≤ S700000x64.size a
  hwx2_0 : ∀ i : grid2.Coords, EltTy.bits .f32 = 32 ∨ (Rect.block (s := S700000x64) S7000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S7000x64.size a ≤ S700000x64.size a
  hwx2_2 : ∀ i : grid2.Coords, EltTy.bits .f32 = 32 ∨ (Rect.block (s := S700000x64) S7000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x896.size a ≤ S50000x896.size a
  hwx3_0 : ∀ i : grid3.Coords, EltTy.bits .f32 = 32 ∨ (Rect.block (s := S50000x896) S1000x896.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S896x1.size a ≤ S896x1.size a
  hwx3_1 : ∀ i : grid3.Coords, EltTy.bits .f32 = 32 ∨ (Rect.block (s := S896x1) S896x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x1.size a ≤ S50000x1.size a
  hwx3_3 : ∀ i : grid3.Coords, EltTy.bits .f32 = 32 ∨ (Rect.block (s := S50000x1) S1000x1.size (cc3_transform_3 i) (hinb3_3 i)).WholeWords (EltTy.packing .f32)

variable [Facts₀]

def dot_S7000x32_S32x64_S7000x64_1_0_0_1_n_n : DotDims S7000x32 S32x64 S7000x64 where
  lhsContracting := [1]
  rhsContracting := [0]
  lhsNonContracting := [0]
  rhsNonContracting := [1]
  lhsBatch := []
  rhsBatch := []
  wf := dot_S7000x32_S32x64_S7000x64_1_0_0_1_n_n_wf
def scatter_S700000_S4000000x1_S4000000_n_0_0_1 : ScatterDims S700000 S4000000x1 S4000000 where
  updateWindowDims := []
  insertedWindowDims := [0]
  scatterDimsToOperandDims := [0]
  indexVectorDim := 1
  wf := scatter_S700000_S4000000x1_S4000000_n_0_0_1_wf
def gather_S700000_S4000000x1_S4000000_n_0_n_n_0_1_1 : GatherDims S700000 S4000000x1 S4000000 where
  offsetDims := []
  collapsedSliceDims := [0]
  operandBatchingDims := []
  startIndicesBatchingDims := []
  startIndexMap := [0]
  indexVectorDim := 1
  sliceSizes := ![1]
  wf := gather_S700000_S4000000x1_S4000000_n_0_n_n_0_1_1_wf
def gather_S700000x64_S4000000x1_S4000000x64_1_0_n_n_0_1_164 : GatherDims S700000x64 S4000000x1 S4000000x64 where
  offsetDims := [1]
  collapsedSliceDims := [0]
  operandBatchingDims := []
  startIndicesBatchingDims := []
  startIndexMap := [0]
  indexVectorDim := 1
  sliceSizes := ![1, 64]
  wf := gather_S700000x64_S4000000x1_S4000000x64_1_0_n_n_0_1_164_wf
def scatter_S700000x64_S4000000x1_S4000000x64_1_0_0_1 : ScatterDims S700000x64 S4000000x1 S4000000x64 where
  updateWindowDims := [1]
  insertedWindowDims := [0]
  scatterDimsToOperandDims := [0]
  indexVectorDim := 1
  wf := scatter_S700000x64_S4000000x1_S4000000x64_1_0_0_1_wf
def dot_S7000x64_S64x64_S7000x64_1_0_0_1_n_n : DotDims S7000x64 S64x64 S7000x64 where
  lhsContracting := [1]
  rhsContracting := [0]
  lhsNonContracting := [0]
  rhsNonContracting := [1]
  lhsBatch := []
  rhsBatch := []
  wf := dot_S7000x64_S64x64_S7000x64_1_0_0_1_n_n_wf
def dot_S1000x896_S896x1_S1000x1_1_0_0_1_n_n : DotDims S1000x896 S896x1 S1000x1 where
  lhsContracting := [1]
  rhsContracting := [0]
  lhsNonContracting := [0]
  rhsNonContracting := [1]
  lhsBatch := []
  rhsBatch := []
  wf := dot_S1000x896_S896x1_S1000x1_1_0_0_1_n_n_wf

abbrev win0_0 : Pipeline.Window sig grid0 :=
  Pipeline.Window.ofSpec (Memref.whole main_arg0) S7000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S7000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S7000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S7000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v85) S7000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S7000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S1000x896.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S896x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S700000x32 : Shape := ⟨2, ![700000, 32]⟩
abbrev S2x4000000 : Shape := ⟨2, ![2, 4000000]⟩
abbrev S32x64 : Shape := ⟨2, ![32, 64]⟩
abbrev S64 : Shape := ⟨1, ![64]⟩
abbrev S64x64 : Shape := ⟨2, ![64, 64]⟩
abbrev S896x1 : Shape := ⟨2, ![896, 1]⟩
abbrev S1 : Shape := ⟨1, ![1]⟩
abbrev S1x4000000 : Shape := ⟨2, ![1, 4000000]⟩
abbrev S4000000 : Shape := ⟨1, ![4000000]⟩
abbrev S700000x64 : Shape := ⟨2, ![700000, 64]⟩
abbrev S_ : Shape := ⟨0, ![]⟩
abbrev S700000 : Shape := ⟨1, ![700000]⟩
abbrev S4000000x1 : Shape := ⟨2, ![4000000, 1]⟩
abbrev S4000000x64 : Shape := ⟨2, ![4000000, 64]⟩
abbrev S700000x1 : Shape := ⟨2, ![700000, 1]⟩
abbrev S1x64 : Shape := ⟨2, ![1, 64]⟩
abbrev S50000x896 : Shape := ⟨2, ![50000, 896]⟩
abbrev S50000x1 : Shape := ⟨2, ![50000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S700000x32, .f32⟩
  | 1 => ⟨S2x4000000, .i32⟩
  | 2 => ⟨S32x64, .f32⟩
  | 3 => ⟨S64, .f32⟩
  | 4 => ⟨S64x64, .f32⟩
  | 5 => ⟨S64, .f32⟩
  | 6 => ⟨S896x1, .f32⟩
  | 7 => ⟨S1, .f32⟩
  | 8 => ⟨S1x4000000, .i32⟩
  | 9 => ⟨S4000000, .i32⟩
  | 10 => ⟨S1x4000000, .i32⟩
  | 11 => ⟨S4000000, .i32⟩
  | 12 => ⟨S700000x64, .f32⟩
  | 13 => ⟨S_, .f32⟩
  | 14 => ⟨S4000000, .f32⟩
  | 15 => ⟨S_, .f32⟩
  | 16 => ⟨S700000, .f32⟩
  | 17 => ⟨S4000000x1, .i32⟩
  | 18 => ⟨S700000, .f32⟩
  | 19 => ⟨S_, .f32⟩
  | 20 => ⟨S700000, .f32⟩
  | 21 => ⟨S700000, .f32⟩
  | 22 => ⟨S700000, .f32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000, .f32⟩
  | 32 => ⟨S_, .i32⟩
  | 33 => ⟨S4000000, .i32⟩
  | 34 => ⟨S4000000, .i1⟩
  | 35 => ⟨S_, .i32⟩
  | 36 => ⟨S4000000, .i32⟩
  | 37 => ⟨S4000000, .i32⟩
  | 38 => ⟨S4000000, .i32⟩
  | 39 => ⟨S4000000x1, .i32⟩
  | 40 => ⟨S4000000, .f32⟩
  | 41 => ⟨S4000000, .f32⟩
  | 42 => ⟨S_, .i32⟩
  | 43 => ⟨S4000000, .i32⟩
  | 44 => ⟨S4000000, .i1⟩
  | 45 => ⟨S_, .i32⟩
  | 46 => ⟨S4000000, .i32⟩
  | 47 => ⟨S4000000, .i32⟩
  | 48 => ⟨S4000000, .i32⟩
  | 49 => ⟨S4000000x1, .i32⟩
  | 50 => ⟨S4000000x64, .f32⟩
  | 51 => ⟨S4000000x1, .f32⟩
  | 52 => ⟨S4000000x64, .f32⟩
  | 53 => ⟨S4000000x64, .f32⟩
  | 54 => ⟨S_, .f32⟩
  | 55 => ⟨S700000x64, .f32⟩
  | 56 => ⟨S4000000x1, .i32⟩
  | 57 => ⟨S700000x64, .f32⟩
  | 58 => ⟨S700000, .f32⟩
  | 59 => ⟨S700000x1, .f32⟩
  | 60 => ⟨S700000x64, .f32⟩
  | 61 => ⟨S700000x64, .f32⟩
  | 62 => ⟨S700000x64, .f32⟩
  | 63 => ⟨S1x64, .f32⟩
  | 64 => ⟨S700000x64, .f32⟩
  | 65 => ⟨S700000x64, .f32⟩
  | 66 => ⟨S_, .f32⟩
  | 67 => ⟨S700000x64, .f32⟩
  | 68 => ⟨S700000x64, .f32⟩
  | 69 => ⟨S700000x64, .f32⟩
  | 70 => ⟨S_, .f32⟩
  | 71 => ⟨S4000000, .f32⟩
  | 72 => ⟨S_, .f32⟩
  | 73 => ⟨S700000, .f32⟩
  | 74 => ⟨S4000000x1, .i32⟩
  | 75 => ⟨S700000, .f32⟩
  | 76 => ⟨S_, .f32⟩
  | 77 => ⟨S700000, .f32⟩
  | 78 => ⟨S700000, .f32⟩
  | 79 => ⟨S700000, .f32⟩
  | 80 => ⟨S_, .i32⟩
  | 81 => ⟨S4000000, .i32⟩
  | 82 => ⟨S4000000, .i1⟩
  | 83 => ⟨S_, .i32⟩
  | 84 => ⟨S4000000, .i32⟩
  | 85 => ⟨S4000000, .i32⟩
  | 86 => ⟨S4000000, .i32⟩
  | 87 => ⟨S4000000x1, .i32⟩
  | 88 => ⟨S4000000, .f32⟩
  | 89 => ⟨S_, .i32⟩
  | 90 => ⟨S4000000, .i32⟩
  | 91 => ⟨S4000000, .i1⟩
  | 92 => ⟨S_, .i32⟩
  | 93 => ⟨S4000000, .i32⟩
  | 94 => ⟨S4000000, .i32⟩
  | 95 => ⟨S4000000, .i32⟩
  | 96 => ⟨S4000000x1, .i32⟩
  | 97 => ⟨S4000000, .f32⟩
  | 98 => ⟨S4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S4000000x1, .i32⟩
  | 107 => ⟨S4000000x64, .f32⟩
  | 108 => ⟨S4000000x1, .f32⟩
  | 109 => ⟨S4000000x64, .f32⟩
  | 110 => ⟨S4000000x64, .f32⟩
  | 111 => ⟨S_, .f32⟩
  | 112 => ⟨S700000x64, .f32⟩
  | 113 => ⟨S4000000x1, .i32⟩
  | 114 => ⟨S700000x64, .f32⟩
  | 115 => ⟨S700000, .f32⟩
  | 116 => ⟨S700000x1, .f32⟩
  | 117 => ⟨S700000x64, .f32⟩
  | 118 => ⟨S700000x64, .f32⟩
  | 119 => ⟨S700000x64, .f32⟩
  | 120 => ⟨S1x64, .f32⟩
  | 121 => ⟨S700000x64, .f32⟩
  | 122 => ⟨S700000x64, .f32⟩
  | 123 => ⟨S_, .f32⟩
  | 124 => ⟨S700000x64, .f32⟩
  | 125 => ⟨S700000x64, .f32⟩
  | 126 => ⟨S50000x896, .f32⟩
  | 127 => ⟨S50000x1, .f32⟩
  | _ => ⟨S700000x32, .f32⟩

abbrev hbmTy0_1 (i : Nat) : BufTy := match i % 128 with
  | 0 => ⟨S1x1, .f32⟩
  | 1 => ⟨S50000x1, .f32⟩
  | 2 => ⟨S50000x1, .f32⟩
  | _ => ⟨S700000x32, .f32⟩

abbrev hbmTy (i : Nat) : BufTy := match i / 128 with
  | 0 => hbmTy0_0 i
  | 1 => hbmTy0_1 i
  | _ => ⟨S700000x32, .f32⟩

abbrev bufTy : (tb : Table) → Fin (tcTables nBuf tb) → BufTy
  | .hbm, ⟨i, _⟩ => hbmTy i
  | _, _ => ⟨S700000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S700000 : S_.BroadcastsInDim S700000 (![] : Fin 0 → Fin S700000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S700000x64 : S_.BroadcastsInDim S700000x64 (![] : Fin 0 → Fin S700000x64.rank)
  bcast_S700000_S700000x1_0 : S700000.BroadcastsInDim S700000x1 (![0] : Fin 1 → Fin S700000x1.rank)
  bcast_S700000x1_S700000x64_0_1 : S700000x1.BroadcastsInDim S700000x64 (![0, 1] : Fin 2 → Fin S700000x64.rank)
  bcast_S64_S1x64_1 : S64.BroadcastsInDim S1x64 (![1] : Fin 1 → Fin S1x64.rank)
  bcast_S1x64_S700000x64_0_1 : S1x64.BroadcastsInDim S700000x64 (![0, 1] : Fin 2 → Fin S700000x64.rank)
  shapeCasts_S700000x64_S50000x896 : S700000x64.ShapeCasts S50000x896
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S700000x32_S32x64_S700000x64_1_0_0_1_n_n_wf : DotDims.WF S700000x32 S32x64 S700000x64 [1] [0] [0] [1] [] []
  scatter_S700000_S4000000x1_S4000000_n_0_0_1_wf : ScatterDims.WF S700000 S4000000x1 S4000000 [] [0] [0] 1
  gather_S700000_S4000000x1_S4000000_n_0_n_n_0_1_1_wf : GatherDims.WF S700000 S4000000x1 S4000000 [] [0] [] [0] [] 1 ![1]
  gather_S700000x64_S4000000x1_S4000000x64_1_0_n_n_0_1_164_wf : GatherDims.WF S700000x64 S4000000x1 S4000000x64 [1] [0] [] [0] [] 1 ![1, 64]
  scatter_S700000x64_S4000000x1_S4000000x64_1_0_0_1_wf : ScatterDims.WF S700000x64 S4000000x1 S4000000x64 [1] [0] [0] 1
  dot_S700000x64_S64x64_S700000x64_1_0_0_1_n_n_wf : DotDims.WF S700000x64 S64x64 S700000x64 [1] [0] [0] [1] [] []
  dot_S50000x896_S896x1_S50000x1_1_0_0_1_n_n_wf : DotDims.WF S50000x896 S896x1 S50000x1 [1] [0] [0] [1] [] []

variable [Facts₀]

def dot_S700000x32_S32x64_S700000x64_1_0_0_1_n_n : DotDims S700000x32 S32x64 S700000x64 where
  lhsContracting := [1]
  rhsContracting := [0]
  lhsNonContracting := [0]
  rhsNonContracting := [1]
  lhsBatch := []
  rhsBatch := []
  wf := dot_S700000x32_S32x64_S700000x64_1_0_0_1_n_n_wf
def scatter_S700000_S4000000x1_S4000000_n_0_0_1 : ScatterDims S700000 S4000000x1 S4000000 where
  updateWindowDims := []
  insertedWindowDims := [0]
  scatterDimsToOperandDims := [0]
  indexVectorDim := 1
  wf := scatter_S700000_S4000000x1_S4000000_n_0_0_1_wf
def gather_S700000_S4000000x1_S4000000_n_0_n_n_0_1_1 : GatherDims S700000 S4000000x1 S4000000 where
  offsetDims := []
  collapsedSliceDims := [0]
  operandBatchingDims := []
  startIndicesBatchingDims := []
  startIndexMap := [0]
  indexVectorDim := 1
  sliceSizes := ![1]
  wf := gather_S700000_S4000000x1_S4000000_n_0_n_n_0_1_1_wf
def gather_S700000x64_S4000000x1_S4000000x64_1_0_n_n_0_1_164 : GatherDims S700000x64 S4000000x1 S4000000x64 where
  offsetDims := [1]
  collapsedSliceDims := [0]
  operandBatchingDims := []
  startIndicesBatchingDims := []
  startIndexMap := [0]
  indexVectorDim := 1
  sliceSizes := ![1, 64]
  wf := gather_S700000x64_S4000000x1_S4000000x64_1_0_n_n_0_1_164_wf
def scatter_S700000x64_S4000000x1_S4000000x64_1_0_0_1 : ScatterDims S700000x64 S4000000x1 S4000000x64 where
  updateWindowDims := [1]
  insertedWindowDims := [0]
  scatterDimsToOperandDims := [0]
  indexVectorDim := 1
  wf := scatter_S700000x64_S4000000x1_S4000000x64_1_0_0_1_wf
def dot_S700000x64_S64x64_S700000x64_1_0_0_1_n_n : DotDims S700000x64 S64x64 S700000x64 where
  lhsContracting := [1]
  rhsContracting := [0]
  lhsNonContracting := [0]
  rhsNonContracting := [1]
  lhsBatch := []
  rhsBatch := []
  wf := dot_S700000x64_S64x64_S700000x64_1_0_0_1_n_n_wf
def dot_S50000x896_S896x1_S50000x1_1_0_0_1_n_n : DotDims S50000x896 S896x1 S50000x1 where
  lhsContracting := [1]
  rhsContracting := [0]
  lhsNonContracting := [0]
  rhsNonContracting := [1]
  lhsBatch := []
  rhsBatch := []
  wf := dot_S50000x896_S896x1_S50000x1_1_0_0_1_n_n_wf

class Facts : Prop extends Facts₀ where

variable [Facts]
-- ==== Proof.KernelRun.lean ====
/-
  The idealized kernel's run, with its RESULT named.

  The program is four tiled regions among stretches of host operations. Every weakly fair execution
  terminates, and at the end each unscoped buffer of a core holds the last of the boundary contents
  `Gen.W8` (the contents at launch, pushed through each host stretch and each region's write-backs in
  turn). The generated frame reads only the argument arrays off that final state; here the same launch is
  read at the result buffer as well: it ends at `Gen.W8 m ρ c` of its own reference.
-/
import proofs.«165334_j2345052144206_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary contents and the eight argument arrays end as launched. -/
theorem run : θ_run defs (onTc (τ := τ) (main (F := F))) ⟨m, fun _ => 0, ρ⟩ (fun r => ∀ c : Dev nD,
      r.2.mem ((c.tc : Thread nD τ).loc main_v88) = W8 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v88 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Result

end
-- ==== Proof.Spec.lean ====
/-
  A two-layer graph convolution with a linear read-out, as ONE function of the eight argument arrays.

  Nodes n < 700000 carry feature rows; the edge list `e` is 2 × 4000000 (row 0 the sources, row 1 the
  destinations; a negative endpoint counts from the end of the node axis). With deg(n) = 1 + #{edges into n}
  and dinv = deg^(-1/2), one aggregation of a feature array `h` is

      agg h (n, f) = Σ_{edges s → n} h(s, f) · dinv(s) · dinv(n)  +  h(n, f) · dinv(n)²

  (the scatter-add over destinations plus the self loop). The network is

      net = head ( regroup ( relu ( agg ( relu (agg (x·W1) + b1) · W2 ) + b2 ) ) ) ,

  `regroup` re-reading the 700000 × 64 activations as 50000 graphs × (14 nodes · 64), `head a = a·Wfc + bfc`.
  Every piece is spelled with the host operations themselves, so that a program which applies those
  operations in this order computes `net` by unfolding, and the pieces a tiled kernel computes block by
  block (`lin0`, `lin1`, `act2`, `head`) are separate names.
-/
import proofs.«165334_j2345052144206_1_alg».proof.ReferenceIdeal
import proofs.«165334_j2345052144206_1_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-- The edges' source endpoints: row 0 of the edge list, as a vector. -/
def src (e : (⟨S2x4000000, .i32⟩ : BufTy).Contents (Elt F)) : (⟨S4000000, .i32⟩ : BufTy).Contents (Elt F) :=
  shapeCast _ (extractStridedSlice S1x4000000 ![0, 0] e slices_S2x4000000_S1x4000000_0_0) shapeCasts_S1x4000000_S4000000

/-- The edges' destination endpoints: row 1 of the edge list, as a vector. -/
def dst (e : (⟨S2x4000000, .i32⟩ : BufTy).Contents (Elt F)) : (⟨S4000000, .i32⟩ : BufTy).Contents (Elt F) :=
  shapeCast _ (extractStridedSlice S1x4000000 ![1, 0] e slices_S2x4000000_S1x4000000_1_0) shapeCasts_S1x4000000_S4000000

/-- A negative endpoint counts from the end of the node axis: `s < 0 ? s + 700000 : s`. -/
def wrap (s : (⟨S4000000, .i32⟩ : BufTy).Contents (Elt F)) : (⟨S4000000, .i32⟩ : BufTy).Contents (Elt F) :=
  select (cmpi .slt s (broadcastInDim S4000000 ![] bcast_S_S4000000 (constantI S_ 32 0#32)))
    (addi s (broadcastInDim S4000000 ![] bcast_S_S4000000 (constantI S_ 32 700000#32))) s

/-- `deg^(-1/2)` per node: one for the self loop plus one per edge into the node, then the reciprocal root. -/
def dinv (d : (⟨S4000000, .i32⟩ : BufTy).Contents (Elt F)) : (⟨S700000, .f32⟩ : BufTy).Contents (Elt F) :=
  Host.rsqrt (addf
    (Host.scatterAdd scatter_S700000_S4000000x1_S4000000_n_0_0_1
      (broadcastInDim S700000 ![] bcast_S_S700000 (constant S_ .f32 0x00000000#32))
      (broadcastInDim S4000000x1 ![0] bcast_S4000000_S4000000x1_0 d)
      (broadcastInDim S4000000 ![] bcast_S_S4000000 (constant S_ .f32 0x3F800000#32)))
    (broadcastInDim S700000 ![] bcast_S_S700000 (constant S_ .f32 0x3F800000#32)))

/-- One symmetric-normalised aggregation of the feature rows `h` along the edges `s → d`, self loop included. -/
def agg (h : (⟨S700000x64, .f32⟩ : BufTy).Contents (Elt F)) (s d : (⟨S4000000, .i32⟩ : BufTy).Contents (Elt F)) : (⟨S700000x64, .f32⟩ : BufTy).Contents (Elt F) :=
  addf
    (Host.scatterAdd scatter_S700000x64_S4000000x1_S4000000x64_1_0_0_1
      (broadcastInDim S700000x64 ![] bcast_S_S700000x64 (constant S_ .f32 0x00000000#32))
      (broadcastInDim S4000000x1 ![0] bcast_S4000000_S4000000x1_0 d)
      (mulf
        (Host.gather gather_S700000x64_S4000000x1_S4000000x64_1_0_n_n_0_1_164 h
          (broadcastInDim S4000000x1 ![0] bcast_S4000000_S4000000x1_0 (wrap s)))
        (broadcastInDim S4000000x64 ![0, 1] bcast_S4000000x1_S4000000x64_0_1
          (broadcastInDim S4000000x1 ![0] bcast_S4000000_S4000000x1_0
            (mulf
              (Host.gather gather_S700000_S4000000x1_S4000000_n_0_n_n_0_1_1 (dinv d)
                (broadcastInDim S4000000x1 ![0] bcast_S4000000_S4000000x1_0 (wrap s)))
              (Host.gather gather_S700000_S4000000x1_S4000000_n_0_n_n_0_1_1 (dinv d)
                (broadcastInDim S4000000x1 ![0] bcast_S4000000_S4000000x1_0 (wrap d))))))))
    (mulf h
      (broadcastInDim S700000x64 ![0, 1] bcast_S700000x1_S700000x64_0_1
        (broadcastInDim S700000x1 ![0] bcast_S700000_S700000x1_0 (mulf (dinv d) (dinv d)))))

/-- A bias row added to every node's features. -/
def biasAdd (a : (⟨S700000x64, .f32⟩ : BufTy).Contents (Elt F)) (b : (⟨S64, .f32⟩ : BufTy).Contents (Elt F)) : (⟨S700000x64, .f32⟩ : BufTy).Contents (Elt F) :=
  addf a (broadcastInDim S700000x64 ![0, 1] bcast_S1x64_S700000x64_0_1 (broadcastInDim S1x64 ![1] bcast_S64_S1x64_1 b))

/-- The positive part, entry by entry. -/
def relu (a : (⟨S700000x64, .f32⟩ : BufTy).Contents (Elt F)) : (⟨S700000x64, .f32⟩ : BufTy).Contents (Elt F) :=
  maximumf a (broadcastInDim S700000x64 ![] bcast_S_S700000x64 (constant S_ .f32 0x00000000#32))

/-- The first dense layer: `x · W1`. -/
def lin0 (x : (⟨S700000x32, .f32⟩ : BufTy).Contents (Elt F)) (w : (⟨S32x64, .f32⟩ : BufTy).Contents (Elt F)) : (⟨S700000x64, .f32⟩ : BufTy).Contents (Elt F) :=
  Host.dotGeneral dot_S700000x32_S32x64_S700000x64_1_0_0_1_n_n none x w

/-- The second dense layer on the activated first aggregation: `relu (a + b) · W2`. -/
def lin1 (a : (⟨S700000x64, .f32⟩ : BufTy).Contents (Elt F)) (b : (⟨S64, .f32⟩ : BufTy).Contents (Elt F)) (w : (⟨S64x64, .f32⟩ : BufTy).Contents (Elt F)) : (⟨S700000x64, .f32⟩ : BufTy).Contents (Elt F) :=
  Host.dotGeneral dot_S700000x64_S64x64_S700000x64_1_0_0_1_n_n none (relu (biasAdd a b)) w

/-- The activated second aggregation: `relu (a + b)`. -/
def act2 (a : (⟨S700000x64, .f32⟩ : BufTy).Contents (Elt F)) (b : (⟨S64, .f32⟩ : BufTy).Contents (Elt F)) : (⟨S700000x64, .f32⟩ : BufTy).Contents (Elt F) :=
  relu (biasAdd a b)

/-- The node features of each graph laid side by side: 700000 × 64 read as 50000 × 896. -/
def regroup (a : (⟨S700000x64, .f32⟩ : BufTy).Contents (Elt F)) : (⟨S50000x896, .f32⟩ : BufTy).Contents (Elt F) :=
  shapeCast _ a shapeCasts_S700000x64_S50000x896

/-- The linear read-out per graph: `a · Wfc + bfc`. -/
def head (a : (⟨S50000x896, .f32⟩ : BufTy).Contents (Elt F)) (w : (⟨S896x1, .f32⟩ : BufTy).Contents (Elt F)) (b : (⟨S1, .f32⟩ : BufTy).Contents (Elt F)) : (⟨S50000x1, .f32⟩ : BufTy).Contents (Elt F) :=
  addf (Host.dotGeneral dot_S50000x896_S896x1_S50000x1_1_0_0_1_n_n none a w)
    (broadcastInDim S50000x1 ![0, 1] bcast_S1x1_S50000x1_0_1 (broadcastInDim S1x1 ![1] bcast_S1_S1x1_1 b))

/-! ## Entries of the factors that one entry of a product reads

Indices are built coordinate by coordinate over the literal shapes. -/

/-- Row `i 0`, column `k` of the 700000 × 32 input features. -/
abbrev lrow32 (i : S700000x64.Idx) (k : Fin 32) : S700000x32.Idx := fun a => match a with
  | ⟨0, _⟩ => ⟨(i 0).val, (i 0).isLt⟩
  | ⟨1, _⟩ => ⟨k.val, k.isLt⟩
/-- Row `k`, column `i 1` of the 32 × 64 weights. -/
abbrev rcol32 (i : S700000x64.Idx) (k : Fin 32) : S32x64.Idx := fun a => match a with
  | ⟨0, _⟩ => ⟨k.val, k.isLt⟩
  | ⟨1, _⟩ => ⟨(i 1).val, (i 1).isLt⟩
/-- Row `i 0`, column `k` of a 700000 × 64 feature array. -/
abbrev lrow64 (i : S700000x64.Idx) (k : Fin 64) : S700000x64.Idx := fun a => match a with
  | ⟨0, _⟩ => ⟨(i 0).val, (i 0).isLt⟩
  | ⟨1, _⟩ => ⟨k.val, k.isLt⟩
/-- Row `k`, column `i 1` of the 64 × 64 weights. -/
abbrev rcol64 (i : S700000x64.Idx) (k : Fin 64) : S64x64.Idx := fun a => match a with
  | ⟨0, _⟩ => ⟨k.val, k.isLt⟩
  | ⟨1, _⟩ => ⟨(i 1).val, (i 1).isLt⟩
/-- The bias entry of feature `i 1`. -/
abbrev feat (i : S700000x64.Idx) : S64.Idx := fun a => match a with
  | ⟨0, _⟩ => ⟨(i 1).val, (i 1).isLt⟩
/-- The bias entry of feature `k`. -/
abbrev featK (k : Fin 64) : S64.Idx := fun a => match a with
  | ⟨0, _⟩ => ⟨k.val, k.isLt⟩
/-- Row `i 0`, column `k` of the 50000 × 896 regrouped activations. -/
abbrev lrow896 (i : S50000x1.Idx) (k : Fin 896) : S50000x896.Idx := fun a => match a with
  | ⟨0, _⟩ => ⟨(i 0).val, (i 0).isLt⟩
  | ⟨1, _⟩ => ⟨k.val, k.isLt⟩
/-- Row `k`, column `i 1` (the only one) of the 896 × 1 read-out weights. -/
abbrev rcol896 (i : S50000x1.Idx) (k : Fin 896) : S896x1.Idx := fun a => match a with
  | ⟨0, _⟩ => ⟨k.val, k.isLt⟩
  | ⟨1, _⟩ => ⟨(i 1).val, (i 1).isLt⟩
/-- The one entry of the read-out bias. -/
abbrev only1 : S1.Idx := fun a => match a with
  | ⟨0, _⟩ => ⟨0, Nat.one_pos⟩

/-- The whole network. -/
def net (x : (⟨S700000x32, .f32⟩ : BufTy).Contents (Elt F)) (e : (⟨S2x4000000, .i32⟩ : BufTy).Contents (Elt F)) (w1 : (⟨S32x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) (wfc : (⟨S896x1, .f32⟩ : BufTy).Contents (Elt F)) (bfc : (⟨S1, .f32⟩ : BufTy).Contents (Elt F)) : (⟨S50000x1, .f32⟩ : BufTy).Contents (Elt F) :=
  head (regroup (act2 (agg (lin1 (agg (lin0 x w1) (src e) (dst e)) b1 w2) (src e) (dst e)) b2)) wfc bfc

end Cert.Gcn

end
-- ==== Proof.Entries.lean ====
/-
  The four dense layers of the network, entry by entry, over the extended reals.

  * `lin0At x w (n, f)   = Σ_{k<32}  x(n, k) · w(k, f)`
  * `lin1At a b w (n, f) = Σ_{k<64}  max (a(n, k) + b(k)) 0 · w(k, f)`
  * `act2At a b (n, f)   = max (a(n, f) + b(f)) 0`
  * `headAt a w b (g, 0) = Σ_{k<896} a(g, k) · w(k, 0)  +  b(0)`

  These are what a tiled kernel's blocks are restrictions of: a block of rows of the result reads the same
  rows of the left factor and the whole right factor.
-/
import proofs.«165334_j2345052144206_1_alg».proof.Proof.Spec

noncomputable section

namespace Cert.Gcn

open Cert.ReferenceIdeal Cert.ReferenceIdeal.Gen Idealize.ShloMosaic

/-- An entry of `x · W1`: the sum over the 32 input features. -/
def lin0At (x : (⟨S700000x32, .f32⟩ : BufTy).Contents (Elt Ideal)) (w : (⟨S32x64, .f32⟩ : BufTy).Contents (Elt Ideal)) : (⟨S700000x64, .f32⟩ : BufTy).Contents (Elt Ideal) :=
  fun i => ∑ k : Fin 32, x (lrow32 i k) * w (rcol32 i k)

/-- An entry of `relu (a + b) · W2`: the sum over the 64 hidden features of the activated entry times the weight. -/
def lin1At (a : (⟨S700000x64, .f32⟩ : BufTy).Contents (Elt Ideal)) (b : (⟨S64, .f32⟩ : BufTy).Contents (Elt Ideal)) (w : (⟨S64x64, .f32⟩ : BufTy).Contents (Elt Ideal)) : (⟨S700000x64, .f32⟩ : BufTy).Contents (Elt Ideal) :=
  fun i => ∑ k : Fin 64, max (a (lrow64 i k) + b (featK k)) (Ideal.ofBits .f32 0x00000000#32) * w (rcol64 i k)

/-- An entry of `relu (a + b)`. -/
def act2At (a : (⟨S700000x64, .f32⟩ : BufTy).Contents (Elt Ideal)) (b : (⟨S64, .f32⟩ : BufTy).Contents (Elt Ideal)) : (⟨S700000x64, .f32⟩ : BufTy).Contents (Elt Ideal) :=
  fun i => max (a i + b (feat i)) (Ideal.ofBits .f32 0x00000000#32)

/-- A graph's read-out: the sum over its 896 regrouped activations times the weights, plus the bias. -/
def headAt (a : (⟨S50000x896, .f32⟩ : BufTy).Contents (Elt Ideal)) (w : (⟨S896x1, .f32⟩ : BufTy).Contents (Elt Ideal)) (b : (⟨S1, .f32⟩ : BufTy).Contents (Elt Ideal)) : (⟨S50000x1, .f32⟩ : BufTy).Contents (Elt Ideal) :=
  fun i => (∑ k : Fin 896, a (lrow896 i k) * w (rcol896 i k)) + b only1

end Cert.Gcn

end
-- ==== Proof.Region0.lean ====
/-
  The first tiled region computes `x · W1`.

  The region walks 100 grid points; point `t` stages rows `7000 t … 7000 t + 6999` of the 700000 × 32 input,
  the whole 32 × 64 weight matrix, and writes back rows `7000 t … 7000 t + 6999` of the 700000 × 64 result. The
  body's one stored value is a product of the two staged blocks into a zero accumulator, so an entry
  `(r, f)` of what point `t` writes back is `Σ_{k<32} x(7000 t + r, k) · W1(k, f)`: the restriction to the
  point's rows of ONE function of the whole arrays (`Gcn.lin0At`). The 100 blocks tile the result, so after
  the region the result array is that function — whatever the contents `V` the region was entered with.
-/
import proofs.«165334_j2345052144206_1_alg».proof.Proof.Gen.KernelIdeal.Frame
import proofs.«165334_j2345052144206_1_alg».proof.Proof.Entries
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.Pipeline (Dat Cfg Window)

/-! ## The body's product at an entry of a block -/

/-- Row `j 0`, column `k` of the staged 7000 × 32 block. -/
abbrev bl (j : S7000x64.Idx) (k : Fin 32) : S7000x32.Idx := fun a => match a with
  | ⟨0, _⟩ => ⟨(j 0).val, (j 0).isLt⟩
  | ⟨1, _⟩ => ⟨k.val, k.isLt⟩
/-- Row `k`, column `j 1` of the staged 32 × 64 weights. -/
abbrev br (j : S7000x64.Idx) (k : Fin 32) : S32x64.Idx := fun a => match a with
  | ⟨0, _⟩ => ⟨k.val, k.isLt⟩
  | ⟨1, _⟩ => ⟨(j 1).val, (j 1).isLt⟩

theorem lhs_0 (j : S7000x64.Idx) (q : dot_S7000x32_S32x64_S7000x64_1_0_0_1_n_n.contr.Idx) : (dot_S7000x32_S32x64_S7000x64_1_0_0_1_n_n.lhsIdx j q 0).val = (j 0).val := by
  unfold DotDims.lhsIdx
  rw [dif_neg (show ¬(0 : Fin S7000x32.rank) ∈ dot_S7000x32_S32x64_S7000x64_1_0_0_1_n_n.lhsBatch by decide), dif_pos (show (0 : Fin S7000x32.rank) ∈ dot_S7000x32_S32x64_S7000x64_1_0_0_1_n_n.lhsNonContracting by decide)]
  rfl
theorem lhs_1 (j : S7000x64.Idx) (q : dot_S7000x32_S32x64_S7000x64_1_0_0_1_n_n.contr.Idx) : (dot_S7000x32_S32x64_S7000x64_1_0_0_1_n_n.lhsIdx j q 1).val = (q ⟨0, by decide⟩).val :=
  dot_S7000x32_S32x64_S7000x64_1_0_0_1_n_n.lhsIdx_val_of_single rfl j q
theorem rhs_0 (j : S7000x64.Idx) (q : dot_S7000x32_S32x64_S7000x64_1_0_0_1_n_n.contr.Idx) : (dot_S7000x32_S32x64_S7000x64_1_0_0_1_n_n.rhsIdx j q 0).val = (q ⟨0, by decide⟩).val :=
  dot_S7000x32_S32x64_S7000x64_1_0_0_1_n_n.rhsIdx_val_of_single rfl j q
theorem rhs_1 (j : S7000x64.Idx) (q : dot_S7000x32_S32x64_S7000x64_1_0_0_1_n_n.contr.Idx) : (dot_S7000x32_S32x64_S7000x64_1_0_0_1_n_n.rhsIdx j q 1).val = (j 1).val := by
  unfold DotDims.rhsIdx
  rw [dif_neg (show ¬(1 : Fin S32x64.rank) ∈ dot_S7000x32_S32x64_S7000x64_1_0_0_1_n_n.rhsBatch by decide), dif_pos (show (1 : Fin S32x64.rank) ∈ dot_S7000x32_S32x64_S7000x64_1_0_0_1_n_n.rhsNonContracting by decide)]
  rfl

/-- The stored value at entry `j` of a block: the product into a zero accumulator is the plain sum over the
    contracted axis (a change of float format is the identity on extended reals). -/
theorem pay_apply (v0 : Vec Ideal S7000x32 .f32) (v2 : Vec Ideal S32x64 .f32) (j : S7000x64.Idx) :
    k0_pay1 (F := Ideal) v0 v2 j = ∑ k : Fin 32, v0 (bl j k) * v2 (br j k) := by
  show FloatOps.matmul dot_S7000x32_S32x64_S7000x64_1_0_0_1_n_n none (truncf (F := Ideal) .bf16 v0 bitsLt_bf16_f32) (truncf (F := Ideal) .bf16 v2 bitsLt_bf16_f32) (constant (F := Ideal) S7000x64 .f32 0x00000000#32) j = _
  rw [Ideal.matmul_constant_zero_apply, ← Equiv.sum_comp (ValueIdx.contrEquiv1 dot_S7000x32_S32x64_S7000x64_1_0_0_1_n_n 32 rfl rfl).symm]
  refine Finset.sum_congr rfl fun k _ => ?_
  have hk := ValueIdx.contrEquiv1_symm_val dot_S7000x32_S32x64_S7000x64_1_0_0_1_n_n 32 rfl rfl k
  have el : dot_S7000x32_S32x64_S7000x64_1_0_0_1_n_n.lhsIdx j ((ValueIdx.contrEquiv1 dot_S7000x32_S32x64_S7000x64_1_0_0_1_n_n 32 rfl rfl).symm k) = bl j k := funext fun a => Fin.ext (by
    match a with
    | ⟨0, _⟩ => exact lhs_0 _ _
    | ⟨1, _⟩ => exact (lhs_1 _ _).trans hk)
  have er : dot_S7000x32_S32x64_S7000x64_1_0_0_1_n_n.rhsIdx j ((ValueIdx.contrEquiv1 dot_S7000x32_S32x64_S7000x64_1_0_0_1_n_n 32 rfl rfl).symm k) = br j k := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the input rows and the result rows move together, one block of
    7000 rows per point; the weights and every column axis stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `lin0At` of the arrays as the region finds them. -/
theorem flushed_eq (c : Dev nD) (t : Fin cfg0.N) :
    (dat0 V c).flushed 2 t = ((cfg0.win 2).blk t).view.read (Elt Ideal) (Cert.Gcn.lin0At (V c main_arg0) (V c main_arg2)) := by
  show (cfg0.win 2).cut (grid0.coords t) ((dat0 V c).after 2 t) = _
  rw [after0_2]
  unfold out0_2
  rw [View.canon_unit_zero hz]
  simp only [View.ld_unit_zero (S := S7000x32) hz, View.ld_unit_zero (S := S32x64) hz]
  obtain ⟨e0, e1, e2, e3, e4, e5⟩ := idx_facts t
  funext j
  show k0_pay1 (F := Ideal) (iblk0 V c 0 t) (iblk0 V c 1 t) j = Cert.Gcn.lin0At (V c main_arg0) (V c main_arg2) (((cfg0.win 2).blk t).view.emb j)
  rw [pay_apply]
  unfold Cert.Gcn.lin0At
  refine Finset.sum_congr rfl fun k _ => ?_
  have h0 : ((cfg0.win 0).blk t).view.emb (bl j k) = Cert.Gcn.lrow32 (((cfg0.win 2).blk t).view.emb j) k := by
    funext a; apply Fin.ext
    match a with
    | ⟨0, _⟩ => show win0_0.index t (0 : Fin 2) * 7000 + 1 * (j 0).val = win0_2.index t (0 : Fin 2) * 7000 + 1 * (j 0).val; omega
    | ⟨1, _⟩ => show win0_0.index t (1 : Fin 2) * 32 + 1 * k.val = k.val; omega
  have h1 : ((cfg0.win 1).blk t).view.emb (br j k) = Cert.Gcn.rcol32 (((cfg0.win 2).blk t).view.emb j) k := by
    funext a; apply Fin.ext
    match a with
    | ⟨0, _⟩ => show win0_1.index t (0 : Fin 2) * 32 + 1 * k.val = k.val; omega
    | ⟨1, _⟩ => show win0_1.index t (1 : Fin 2) * 64 + 1 * (j 1).val = win0_2.index t (1 : Fin 2) * 64 + 1 * (j 1).val; omega
  have a0 : iblk0 V c 0 t (bl j k) = V c main_arg0 (Cert.Gcn.lrow32 (((cfg0.win 2).blk t).view.emb j) k) := by
    show V c main_arg0 (((cfg0.win 0).blk t).view.emb (bl j k)) = _
    rw [h0]
  have a1 : iblk0 V c 1 t (br j k) = V c main_arg2 (Cert.Gcn.rcol32 (((cfg0.win 2).blk t).view.emb j) k) := by
    show V c main_arg2 (((cfg0.win 1).blk t).view.emb (br j k)) = _
    rw [h1]
  rw [a0, a1]

/-- An index of the result array lies in point `t`'s block iff each coordinate lies in the block's range. -/
theorem mem_blk (t : Fin cfg0.N) (i : S700000x64.Idx) :
    i ∈ ((cfg0.win 2).blk t).view.set ↔ ∀ a : Fin 2, win0_2.index t a * S7000x64.size a ≤ (i a).val ∧ (i a).val < win0_2.index t a * S7000x64.size a + S7000x64.size a := by
  show i ∈ ((View.whole main_v4).slice (win0_2.rect t)).set ↔ _
  rw [View.set_slice_whole, Rect.mem_set_unit]
  exact Iff.rfl

/-- The blocks tile the result: row `r` lies in the block of point `r / 7000`. -/
theorem cover (i : S700000x64.Idx) : ∃ t : Fin cfg0.N, (cfg0.win 2).flush t = true ∧ i ∈ ((cfg0.win 2).blk t).view.set := by
  have hi0 : (i 0).val < 700000 := (i 0).isLt
  have hi1 : (i 1).val < 64 := (i 1).isLt
  have hN : cfg0.N = 100 := N_0
  let t : Fin cfg0.N := ⟨(i 0).val / 7000, by rw [hN]; omega⟩
  obtain ⟨e0, e1, e2, e3, e4, e5⟩ := idx_facts t
  have ht : t.val = (i 0).val / 7000 := rfl
  refine ⟨t, flush0_2 t, ?_⟩
  rw [mem_blk]
  intro a
  match a with
  | ⟨0, _⟩ => show win0_2.index t (0 : Fin 2) * 7000 ≤ (i 0).val ∧ (i 0).val < win0_2.index t (0 : Fin 2) * 7000 + 7000; omega
  | ⟨1, _⟩ => show win0_2.index t (1 : Fin 2) * 64 ≤ (i 1).val ∧ (i 1).val < win0_2.index t (1 : Fin 2) * 64 + 64; omega

/-- After the region the result array is `x · W1` of the arrays as the region finds them. -/
theorem final (c : Dev nD) :
    (dat0 V c).arrAt 2 cfg0.N = Cert.Gcn.lin0At (V c main_arg0) (V c main_arg2) :=
  (dat0 V c).arrAt_eq_of_cover 2 _ (fun t _ => flushed_eq V c t) cover

end Cert.KernelIdeal.Layer0

end
-- ==== Proof.BiasRelu.lean ====
/-
  Bias and positive part on a block of 7000 rows.

  Two of the kernel's bodies begin the same way: the staged 64 biases are read as one row, that row is
  repeated down the 7000 rows of the staged block, added to it, and the positive part is taken. Entry
  `(r, f)` of the result is `max (v(r, f) + b(f)) 0`: the repeated row reads the bias of the entry's own
  column.
-/
import proofs.«165334_j2345052144206_1_alg».proof.Proof.Gen.KernelIdeal.Skeleton
import Idealize.ShloMosaic.Lib.Pipeline.Value
import Idealize.ShloMosaic.Lib.ValueIdx

noncomputable section

namespace Cert.KernelIdeal.BiasRelu

open Cert.KernelIdeal Cert.KernelIdeal.Gen Idealize.ShloMosaic Idealize.ShloMosaic.TcCoe

/-- The bias entry of an entry's column. -/
abbrev bfeat (i : S7000x64.Idx) : S64.Idx := fun a => match a with
  | ⟨0, _⟩ => ⟨(i 1).val, (i 1).isLt⟩

/-- A vector of 64 read as a 1 × 64 row and repeated down 7000 rows: entry `(r, f)` is entry `f` of the vector. -/
theorem rowRepeat_apply {α : Type} (v : S64.Idx → α) (h1 : S64.ShapeCasts S1x64) (h2 : S1x64.Broadcasts S7000x64) (i : S7000x64.Idx) :
    broadcastTo S7000x64 (shapeCast S1x64 v h1) h2 i = v (bfeat i) := by
  rw [broadcastTo_apply (shapeCast S1x64 v h1) h2 i (fun a => match a with
      | ⟨0, _⟩ => ⟨0, Nat.one_pos⟩
      | ⟨1, _⟩ => ⟨(i 1).val, (i 1).isLt⟩) (fun a => match a with
    | ⟨0, _⟩ => by show 0 = if (1 : Nat) = 1 then 0 else _; rw [if_pos rfl]
    | ⟨1, _⟩ => by show (i 1).val = if (64 : Nat) = 1 then 0 else _; rw [if_neg (by decide)]; rfl)]
  rw [shapeCast_addUnit_apply (n := 1) (![64] : Fin 1 → Nat) v h1]
  exact congrArg v (funext fun a => match a with | ⟨0, _⟩ => rfl)

/-- The third region's stored value at an entry: the block plus the bias of the entry's column, positive part. -/
theorem k2_apply (v0 : Vec Ideal S7000x64 .f32) (v2 : Vec Ideal S64 .f32) (i : S7000x64.Idx) :
    k2_pay1 (F := Ideal) v0 v2 i = max (v0 i + v2 (bfeat i)) (Ideal.ofBits .f32 0x00000000#32) := by
  show max (shapeCast S7000x64 v0 shapeCasts_S7000x64_S7000x64 i
      + broadcastTo S7000x64 (shapeCast S1x64 v2 shapeCasts_S64_S1x64) broadcasts_S1x64_S7000x64 i) (Ideal.ofBits .f32 0x00000000#32) = _
  rw [shapeCast_self, rowRepeat_apply]

end Cert.KernelIdeal.BiasRelu

end
-- ==== Proof.Region1.lean ====
/-
  The second tiled region computes `relu (a + b1) · W2` of the first aggregation `a`.

  100 grid points; point `t` stages rows `7000 t … 7000 t + 6999` of the 700000 × 64 array, the whole bias and
  the whole 64 × 64 weight matrix, and writes back the same rows of the result. The body adds the bias row,
  takes the positive part and multiplies by the weights into a zero accumulator, so entry `(r, f)` of what
  point `t` writes back is `Σ_{k<64} max (a(7000 t + r, k) + b1(k)) 0 · W2(k, f)`: the restriction to the
  point's rows of `Gcn.lin1At`. The blocks tile the result.
-/
import proofs.«165334_j2345052144206_1_alg».proof.Proof.Gen.KernelIdeal.Frame
import proofs.«165334_j2345052144206_1_alg».proof.Proof.Entries
import proofs.«165334_j2345052144206_1_alg».proof.Proof.BiasRelu
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat Cfg Window)
open Cert.KernelIdeal.BiasRelu (bfeat k2_apply)

/-! ## The body's product at an entry of a block -/

/-- Row `j 0`, column `k` of the staged 7000 × 64 block. -/
abbrev bl (j : S7000x64.Idx) (k : Fin 64) : S7000x64.Idx := fun a => match a with
  | ⟨0, _⟩ => ⟨(j 0).val, (j 0).isLt⟩
  | ⟨1, _⟩ => ⟨k.val, k.isLt⟩
/-- Row `k`, column `j 1` of the staged 64 × 64 weights. -/
abbrev br (j : S7000x64.Idx) (k : Fin 64) : S64x64.Idx := fun a => match a with
  | ⟨0, _⟩ => ⟨k.val, k.isLt⟩
  | ⟨1, _⟩ => ⟨(j 1).val, (j 1).isLt⟩
/-- The bias entry of hidden feature `k`. -/
abbrev fk (k : Fin 64) : S64.Idx := fun a => match a with
  | ⟨0, _⟩ => ⟨k.val, k.isLt⟩

theorem lhs_0 (j : S7000x64.Idx) (q : dot_S7000x64_S64x64_S7000x64_1_0_0_1_n_n.contr.Idx) : (dot_S7000x64_S64x64_S7000x64_1_0_0_1_n_n.lhsIdx j q 0).val = (j 0).val := by
  unfold DotDims.lhsIdx
  rw [dif_neg (show ¬(0 : Fin S7000x64.rank) ∈ dot_S7000x64_S64x64_S7000x64_1_0_0_1_n_n.lhsBatch by decide), dif_pos (show (0 : Fin S7000x64.rank) ∈ dot_S7000x64_S64x64_S7000x64_1_0_0_1_n_n.lhsNonContracting by decide)]
  rfl
theorem lhs_1 (j : S7000x64.Idx) (q : dot_S7000x64_S64x64_S7000x64_1_0_0_1_n_n.contr.Idx) : (dot_S7000x64_S64x64_S7000x64_1_0_0_1_n_n.lhsIdx j q 1).val = (q ⟨0, by decide⟩).val :=
  dot_S7000x64_S64x64_S7000x64_1_0_0_1_n_n.lhsIdx_val_of_single rfl j q
theorem rhs_0 (j : S7000x64.Idx) (q : dot_S7000x64_S64x64_S7000x64_1_0_0_1_n_n.contr.Idx) : (dot_S7000x64_S64x64_S7000x64_1_0_0_1_n_n.rhsIdx j q 0).val = (q ⟨0, by decide⟩).val :=
  dot_S7000x64_S64x64_S7000x64_1_0_0_1_n_n.rhsIdx_val_of_single rfl j q
theorem rhs_1 (j : S7000x64.Idx) (q : dot_S7000x64_S64x64_S7000x64_1_0_0_1_n_n.contr.Idx) : (dot_S7000x64_S64x64_S7000x64_1_0_0_1_n_n.rhsIdx j q 1).val = (j 1).val := by
  unfold DotDims.rhsIdx
  rw [dif_neg (show ¬(1 : Fin S64x64.rank) ∈ dot_S7000x64_S64x64_S7000x64_1_0_0_1_n_n.rhsBatch by decide), dif_pos (show (1 : Fin S64x64.rank) ∈ dot_S7000x64_S64x64_S7000x64_1_0_0_1_n_n.rhsNonContracting by decide)]
  rfl

/-- The stored value at entry `j` of a block: the left factor of the product is the biased, activated block (the
    same value the third region's body stores), the product into a zero accumulator the plain sum. -/
theorem pay_apply (v0 : Vec Ideal S7000x64 .f32) (v2 : Vec Ideal S64 .f32) (v9 : Vec Ideal S64x64 .f32) (j : S7000x64.Idx) :
    k1_pay1 (F := Ideal) v0 v2 v9 j
      = ∑ k : Fin 64, max (v0 (bl j k) + v2 (fk k)) (Ideal.ofBits .f32 0x00000000#32) * v9 (br j k) := by
  show FloatOps.matmul dot_S7000x64_S64x64_S7000x64_1_0_0_1_n_n none (truncf (F := Ideal) .bf16 (k2_pay1 (F := Ideal) v0 v2) bitsLt_bf16_f32)
    (truncf (F := Ideal) .bf16 v9 bitsLt_bf16_f32) (constant (F := Ideal) S7000x64 .f32 0x00000000#32) j = _
  rw [Ideal.matmul_constant_zero_apply, ← Equiv.sum_comp (ValueIdx.contrEquiv1 dot_S7000x64_S64x64_S7000x64_1_0_0_1_n_n 64 rfl rfl).symm]
  refine Finset.sum_congr rfl fun k _ => ?_
  have hk := ValueIdx.contrEquiv1_symm_val dot_S7000x64_S64x64_S7000x64_1_0_0_1_n_n 64 rfl rfl k
  have el : dot_S7000x64_S64x64_S7000x64_1_0_0_1_n_n.lhsIdx j ((ValueIdx.contrEquiv1 dot_S7000x64_S64x64_S7000x64_1_0_0_1_n_n 64 rfl rfl).symm k) = bl j k := funext fun a => Fin.ext (by
    match a with
    | ⟨0, _⟩ => exact lhs_0 _ _
    | ⟨1, _⟩ => exact (lhs_1 _ _).trans hk)
  have er : dot_S7000x64_S64x64_S7000x64_1_0_0_1_n_n.rhsIdx j ((ValueIdx.contrEquiv1 dot_S7000x64_S64x64_S7000x64_1_0_0_1_n_n 64 rfl rfl).symm k) = br j k := funext fun a => Fin.ext (by
    match a with
    | ⟨0, _⟩ => exact (rhs_0 _ _).trans hk
    | ⟨1, _⟩ => exact rhs_1 _ _)
  rw [el, er]
  show k2_pay1 (F := Ideal) v0 v2 (bl j k) * v9 (br j k) = _
  have hb : bfeat (bl j k) = fk k := funext fun a => match a with | ⟨0, _⟩ => rfl
  rw [k2_apply, hb]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Where each window's block sits at point `t`: the input rows and the result rows move together, one block of
    7000 rows per point; the bias, the weights and every column axis stay at block 0. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `lin1At` of the arrays as the region finds them. -/
theorem flushed_eq (c : Dev nD) (t : Fin cfg1.N) :
    (dat1 V c).flushed 3 t = ((cfg1.win 3).blk t).view.read (Elt Ideal) (Cert.Gcn.lin1At (V c main_v44) (V c main_arg3) (V c main_arg4)) := by
  show (cfg1.win 3).cut (grid1.coords t) ((dat1 V c).after 3 t) = _
  rw [after1_3]
  unfold out1_3
  rw [View.canon_unit_zero hz]
  simp only [View.ld_unit_zero (S := S7000x64) hz, View.ld_unit_zero (S := S64) hz1, View.ld_unit_zero (S := S64x64) hz]
  obtain ⟨e0, e1, e2, e3, e4, e5, e6⟩ := idx_facts t
  funext j
  show k1_pay1 (F := Ideal) (iblk1 V c 0 t) (iblk1 V c 1 t) (iblk1 V c 2 t) j
    = Cert.Gcn.lin1At (V c main_v44) (V c main_arg3) (V c main_arg4) (((cfg1.win 3).blk t).view.emb j)
  rw [pay_apply]
  unfold Cert.Gcn.lin1At
  refine Finset.sum_congr rfl fun k _ => ?_
  have h0 : ((cfg1.win 0).blk t).view.emb (bl j k) = Cert.Gcn.lrow64 (((cfg1.win 3).blk t).view.emb j) k := by
    funext a; apply Fin.ext
    match a with
    | ⟨0, _⟩ => show win1_0.index t (0 : Fin 2) * 7000 + 1 * (j 0).val = win1_3.index t (0 : Fin 2) * 7000 + 1 * (j 0).val; omega
    | ⟨1, _⟩ => show win1_0.index t (1 : Fin 2) * 64 + 1 * k.val = k.val; omega
  have h1 : ((cfg1.win 1).blk t).view.emb (fk k) = Cert.Gcn.featK k := by
    funext a; apply Fin.ext
    match a with
    | ⟨0, _⟩ => show win1_1.index t (0 : Fin 1) * 64 + 1 * k.val = k.val; omega
  have h2 : ((cfg1.win 2).blk t).view.emb (br j k) = Cert.Gcn.rcol64 (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  have a0 : iblk1 V c 0 t (bl j k) = V c main_v44 (Cert.Gcn.lrow64 (((cfg1.win 3).blk t).view.emb j) k) := by
    show V c main_v44 (((cfg1.win 0).blk t).view.emb (bl j k)) = _
    rw [h0]
  have a1 : iblk1 V c 1 t (fk k) = V c main_arg3 (Cert.Gcn.featK k) := by
    show V c main_arg3 (((cfg1.win 1).blk t).view.emb (fk k)) = _
    rw [h1]
  have a2 : iblk1 V c 2 t (br j k) = V c main_arg4 (Cert.Gcn.rcol64 (((cfg1.win 3).blk t).view.emb j) k) := by
    show V c main_arg4 (((cfg1.win 2).blk t).view.emb (br j k)) = _
    rw [h2]
  rw [a0, a1, a2]

/-- An index of the result array lies in point `t`'s block iff each coordinate lies in the block's range. -/
theorem mem_blk (t : Fin cfg1.N) (i : S700000x64.Idx) :
    i ∈ ((cfg1.win 3).blk t).view.set ↔ ∀ a : Fin 2, win1_3.index t a * S7000x64.size a ≤ (i a).val ∧ (i a).val < win1_3.index t a * S7000x64.size a + S7000x64.size a := by
  show i ∈ ((View.whole main_v45).slice (win1_3.rect t)).set ↔ _
  rw [View.set_slice_whole, Rect.mem_set_unit]
  exact Iff.rfl

/-- The blocks tile the result: row `r` lies in the block of point `r / 7000`. -/
theorem cover (i : S700000x64.Idx) : ∃ t : Fin cfg1.N, (cfg1.win 3).flush t = true ∧ i ∈ ((cfg1.win 3).blk t).view.set := by
  have hi0 : (i 0).val < 700000 := (i 0).isLt
  have hi1 : (i 1).val < 64 := (i 1).isLt
  have hN : cfg1.N = 100 := N_1
  let t : Fin cfg1.N := ⟨(i 0).val / 7000, by rw [hN]; omega⟩
  obtain ⟨e0, e1, e2, e3, e4, e5, e6⟩ := idx_facts t
  have ht : t.val = (i 0).val / 7000 := rfl
  refine ⟨t, flush1_3 t, ?_⟩
  rw [mem_blk]
  intro a
  match a with
  | ⟨0, _⟩ => show win1_3.index t (0 : Fin 2) * 7000 ≤ (i 0).val ∧ (i 0).val < win1_3.index t (0 : Fin 2) * 7000 + 7000; omega
  | ⟨1, _⟩ => show win1_3.index t (1 : Fin 2) * 64 ≤ (i 1).val ∧ (i 1).val < win1_3.index t (1 : Fin 2) * 64 + 64; omega

/-- After the region the result array is `relu (a + b1) · W2` of the arrays as the region finds them. -/
theorem final (c : Dev nD) :
    (dat1 V c).arrAt 3 cfg1.N = Cert.Gcn.lin1At (V c main_v44) (V c main_arg3) (V c main_arg4) :=
  (dat1 V c).arrAt_eq_of_cover 3 _ (fun t _ => flushed_eq V c t) cover

end Cert.KernelIdeal.Layer1

end
-- ==== Proof.Region2.lean ====
/-
  The third tiled region computes `relu (a + b2)` of the second aggregation `a`.

  100 grid points; point `t` stages rows `7000 t … 7000 t + 6999` of the 700000 × 64 array and the whole
  bias, and writes back the same rows of the result. Entry `(r, f)` of what it writes back is
  `max (a(7000 t + r, f) + b2(f)) 0`: the restriction to the point's rows of `Gcn.act2At`. The blocks tile the
  result, so after the region the result array is that function of the arrays the region was entered with.
-/
import proofs.«165334_j2345052144206_1_alg».proof.Proof.Gen.KernelIdeal.Frame
import proofs.«165334_j2345052144206_1_alg».proof.Proof.Entries
import proofs.«165334_j2345052144206_1_alg».proof.Proof.BiasRelu
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat Cfg Window)
open Cert.KernelIdeal.BiasRelu (bfeat k2_apply)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Where each window's block sits at point `t`: the input rows and the result rows move together, one block of
    7000 rows per point; the bias and the column axis stay at block 0. -/
theorem idx_facts : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is block `t` of `act2At` of the arrays as the region finds them. -/
theorem flushed_eq (c : Dev nD) (t : Fin cfg2.N) :
    (dat2 V c).flushed 2 t = ((cfg2.win 2).blk t).view.read (Elt Ideal) (Cert.Gcn.act2At (V c main_v85) (V c main_arg5)) := by
  show (cfg2.win 2).cut (grid2.coords t) ((dat2 V c).after 2 t) = _
  rw [after2_2]
  unfold out2_2
  rw [View.canon_unit_zero hz]
  simp only [View.ld_unit_zero (S := S7000x64) hz, View.ld_unit_zero (S := S64) hz1]
  obtain ⟨e0, e1, e2, e3, e4⟩ := idx_facts t
  funext j
  show k2_pay1 (F := Ideal) (iblk2 V c 0 t) (iblk2 V c 1 t) j = Cert.Gcn.act2At (V c main_v85) (V c main_arg5) (((cfg2.win 2).blk t).view.emb j)
  rw [k2_apply]
  unfold Cert.Gcn.act2At
  have h0 : ((cfg2.win 0).blk t).view.emb j = ((cfg2.win 2).blk t).view.emb j := by
    funext a; apply Fin.ext
    match a with
    | ⟨0, _⟩ => show win2_0.index t (0 : Fin 2) * 7000 + 1 * (j 0).val = win2_2.index t (0 : Fin 2) * 7000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (bfeat j) = Cert.Gcn.feat (((cfg2.win 2).blk t).view.emb j) := by
    funext a; apply Fin.ext
    match a with
    | ⟨0, _⟩ => show win2_1.index t (0 : Fin 1) * 64 + 1 * (j 1).val = win2_2.index t (1 : Fin 2) * 64 + 1 * (j 1).val; omega
  have a0 : iblk2 V c 0 t j = V c main_v85 (((cfg2.win 2).blk t).view.emb j) := by
    show V c main_v85 (((cfg2.win 0).blk t).view.emb j) = _
    rw [h0]
  have a1 : iblk2 V c 1 t (bfeat j) = V c main_arg5 (Cert.Gcn.feat (((cfg2.win 2).blk t).view.emb j)) := by
    show V c main_arg5 (((cfg2.win 1).blk t).view.emb (bfeat j)) = _
    rw [h1]
  rw [a0, a1]

/-- An index of the result array lies in point `t`'s block iff each coordinate lies in the block's range. -/
theorem mem_blk (t : Fin cfg2.N) (i : S700000x64.Idx) :
    i ∈ ((cfg2.win 2).blk t).view.set ↔ ∀ a : Fin 2, win2_2.index t a * S7000x64.size a ≤ (i a).val ∧ (i a).val < win2_2.index t a * S7000x64.size a + S7000x64.size a := by
  show i ∈ ((View.whole main_v86).slice (win2_2.rect t)).set ↔ _
  rw [View.set_slice_whole, Rect.mem_set_unit]
  exact Iff.rfl

/-- The blocks tile the result: row `r` lies in the block of point `r / 7000`. -/
theorem cover (i : S700000x64.Idx) : ∃ t : Fin cfg2.N, (cfg2.win 2).flush t = true ∧ i ∈ ((cfg2.win 2).blk t).view.set := by
  have hi0 : (i 0).val < 700000 := (i 0).isLt
  have hi1 : (i 1).val < 64 := (i 1).isLt
  have hN : cfg2.N = 100 := N_2
  let t : Fin cfg2.N := ⟨(i 0).val / 7000, by rw [hN]; omega⟩
  obtain ⟨e0, e1, e2, e3, e4⟩ := idx_facts t
  have ht : t.val = (i 0).val / 7000 := rfl
  refine ⟨t, flush2_2 t, ?_⟩
  rw [mem_blk]
  intro a
  match a with
  | ⟨0, _⟩ => show win2_2.index t (0 : Fin 2) * 7000 ≤ (i 0).val ∧ (i 0).val < win2_2.index t (0 : Fin 2) * 7000 + 7000; omega
  | ⟨1, _⟩ => show win2_2.index t (1 : Fin 2) * 64 ≤ (i 1).val ∧ (i 1).val < win2_2.index t (1 : Fin 2) * 64 + 64; omega

/-- After the region the result array is `relu (a + b2)` of the arrays as the region finds them. -/
theorem final (c : Dev nD) :
    (dat2 V c).arrAt 2 cfg2.N = Cert.Gcn.act2At (V c main_v85) (V c main_arg5) :=
  (dat2 V c).arrAt_eq_of_cover 2 _ (fun t _ => flushed_eq V c t) cover

end Cert.KernelIdeal.Layer2

end
-- ==== Proof.Region3.lean ====
/-
  The last tiled region computes the read-out a · Wfc + bfc.

  The region walks 50 grid points; point t stages rows 1000 t … 1000 t + 999 of the 50000 × 896 regrouped
  activations, the whole 896 × 1 weight column and the one-entry bias, and writes back rows
  1000 t … 1000 t + 999 of the 50000 × 1 result. The body's one stored value is the product of the two
  staged blocks into a zero accumulator, plus the bias entry spread over the block's rows. So entry (r, 0)
  of what point t writes back is Σ_{k<896} a(1000 t + r, k) · Wfc(k, 0) + bfc(0): the restriction to the
  point's rows of ONE function of the whole arrays (Gcn.headAt). The 50 blocks tile the result, so after
  the region the result array is that function, whatever the contents V the region was entered with.
-/
import proofs.«165334_j2345052144206_1_alg».proof.Proof.Gen.KernelIdeal.Frame
import proofs.«165334_j2345052144206_1_alg».proof.Proof.Entries
import Idealize.ShloMosaic.Lib.Pipeline.Value
import Idealize.ShloMosaic.Lib.ValueIdx
import Idealize.ShloMosaic.PureOps.Ideal.Laws

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.Pipeline (Dat Cfg Window)

/-! ## The body's stored value at an entry of a block -/

/-- Row j 0, column k of the staged 1000 × 896 block. -/
abbrev bl (j : S1000x1.Idx) (k : Fin 896) : S1000x896.Idx := fun a => match a with
  | ⟨0, _⟩ => ⟨(j 0).val, (j 0).isLt⟩
  | ⟨1, _⟩ => ⟨k.val, k.isLt⟩
/-- Row k, column j 1 (the only one) of the staged 896 × 1 weights. -/
abbrev br (j : S1000x1.Idx) (k : Fin 896) : S896x1.Idx := fun a => match a with
  | ⟨0, _⟩ => ⟨k.val, k.isLt⟩
  | ⟨1, _⟩ => ⟨(j 1).val, (j 1).isLt⟩
/-- The one entry of the bias. -/
abbrev one : S1.Idx := fun a => match a with
  | ⟨0, _⟩ => ⟨0, Nat.one_pos⟩
/-- The one entry of the bias seen as a 1 × 1 array. -/
abbrev oneByOne : S1x1.Idx := fun a => match a with
  | ⟨0, _⟩ => ⟨0, Nat.one_pos⟩
  | ⟨1, _⟩ => ⟨0, Nat.one_pos⟩

theorem lhs_0 (j : S1000x1.Idx) (q : dot_S1000x896_S896x1_S1000x1_1_0_0_1_n_n.contr.Idx) : (dot_S1000x896_S896x1_S1000x1_1_0_0_1_n_n.lhsIdx j q 0).val = (j 0).val := by
  unfold DotDims.lhsIdx
  rw [dif_neg (show ¬(0 : Fin S1000x896.rank) ∈ dot_S1000x896_S896x1_S1000x1_1_0_0_1_n_n.lhsBatch by decide), dif_pos (show (0 : Fin S1000x896.rank) ∈ dot_S1000x896_S896x1_S1000x1_1_0_0_1_n_n.lhsNonContracting by decide)]
  rfl
theorem lhs_1 (j : S1000x1.Idx) (q : dot_S1000x896_S896x1_S1000x1_1_0_0_1_n_n.contr.Idx) : (dot_S1000x896_S896x1_S1000x1_1_0_0_1_n_n.lhsIdx j q 1).val = (q ⟨0, by decide⟩).val :=
  dot_S1000x896_S896x1_S1000x1_1_0_0_1_n_n.lhsIdx_val_of_single rfl j q
theorem rhs_0 (j : S1000x1.Idx) (q : dot_S1000x896_S896x1_S1000x1_1_0_0_1_n_n.contr.Idx) : (dot_S1000x896_S896x1_S1000x1_1_0_0_1_n_n.rhsIdx j q 0).val = (q ⟨0, by decide⟩).val :=
  dot_S1000x896_S896x1_S1000x1_1_0_0_1_n_n.rhsIdx_val_of_single rfl j q
theorem rhs_1 (j : S1000x1.Idx) (q : dot_S1000x896_S896x1_S1000x1_1_0_0_1_n_n.contr.Idx) : (dot_S1000x896_S896x1_S1000x1_1_0_0_1_n_n.rhsIdx j q 1).val = (j 1).val := by
  unfold DotDims.rhsIdx
  rw [dif_neg (show ¬(1 : Fin S896x1.rank) ∈ dot_S1000x896_S896x1_S1000x1_1_0_0_1_n_n.rhsBatch by decide), dif_pos (show (1 : Fin S896x1.rank) ∈ dot_S1000x896_S896x1_S1000x1_1_0_0_1_n_n.rhsNonContracting by decide)]
  rfl

/-- The product at entry j of a block: into a zero accumulator it is the plain sum over the 896 contracted
    columns (a change of float format is the identity on extended reals). -/
theorem prod_apply (v0 : Vec Ideal S1000x896 .f32) (v3 : Vec Ideal S896x1 .f32) (j : S1000x1.Idx) :
    FloatOps.matmul dot_S1000x896_S896x1_S1000x1_1_0_0_1_n_n none (truncf (F := Ideal) .bf16 v0 bitsLt_bf16_f32) (truncf (F := Ideal) .bf16 v3 bitsLt_bf16_f32) (constant (F := Ideal) S1000x1 .f32 0x00000000#32) j
      = ∑ k : Fin 896, v0 (bl j k) * v3 (br j k) := by
  rw [Ideal.matmul_constant_zero_apply, ← Equiv.sum_comp (ValueIdx.contrEquiv1 dot_S1000x896_S896x1_S1000x1_1_0_0_1_n_n 896 rfl rfl).symm]
  refine Finset.sum_congr rfl fun k _ => ?_
  have hk := ValueIdx.contrEquiv1_symm_val dot_S1000x896_S896x1_S1000x1_1_0_0_1_n_n 896 rfl rfl k
  have el : dot_S1000x896_S896x1_S1000x1_1_0_0_1_n_n.lhsIdx j ((ValueIdx.contrEquiv1 dot_S1000x896_S896x1_S1000x1_1_0_0_1_n_n 896 rfl rfl).symm k) = bl j k := funext fun a => Fin.ext (by
    match a with
    | ⟨0, _⟩ => exact lhs_0 _ _
    | ⟨1, _⟩ => exact (lhs_1 _ _).trans hk)
  have er : dot_S1000x896_S896x1_S1000x1_1_0_0_1_n_n.rhsIdx j ((ValueIdx.contrEquiv1 dot_S1000x896_S896x1_S1000x1_1_0_0_1_n_n 896 rfl rfl).symm k) = br j k := funext fun a => Fin.ext (by
    match a with
    | ⟨0, _⟩ => exact (rhs_0 _ _).trans hk
    | ⟨1, _⟩ => exact rhs_1 _ _)
  rw [el, er]
  rfl

/-- The one-entry bias, seen as 1 × 1 and spread over the 1000 rows of a block, is at every row that one entry. -/
theorem bias_apply {α : Type} (v : S1.Idx → α) (h1 : S1.ShapeCasts S1x1) (h2 : S1x1.Broadcasts S1000x1) (j : S1000x1.Idx) :
    broadcastTo S1000x1 (shapeCast S1x1 v h1) h2 j = v one := by
  refine (broadcastTo_apply (shapeCast S1x1 v h1) h2 j oneByOne (fun a => ?_)).trans ?_
  · match a with
    | ⟨0, _⟩ => show 0 = if (1 : Nat) = 1 then 0 else _; rw [if_pos rfl]
    | ⟨1, _⟩ => show 0 = if (1 : Nat) = 1 then 0 else _; rw [if_pos rfl]
  · refine (shapeCast_addUnit_apply (n := 1) (![1] : Fin 1 → Nat) v h1 oneByOne).trans ?_
    exact congrArg v (funext fun a => Fin.ext (by
      match a with
      | ⟨0, _⟩ => rfl))

/-- The stored value at entry j of a block: the product's entry plus the bias entry. -/
theorem pay_apply (v0 : Vec Ideal S1000x896 .f32) (v3 : Vec Ideal S896x1 .f32) (v6 : Vec Ideal S1 .f32) (j : S1000x1.Idx) :
    k3_pay1 (F := Ideal) v0 v3 v6 j = (∑ k : Fin 896, v0 (bl j k) * v3 (br j k)) + v6 one := by
  show FloatOps.addf (FloatOps.matmul dot_S1000x896_S896x1_S1000x1_1_0_0_1_n_n none (truncf (F := Ideal) .bf16 (shapeCast S1000x896 v0 shapeCasts_S1000x896_S1000x896) bitsLt_bf16_f32) (truncf (F := Ideal) .bf16 v3 bitsLt_bf16_f32) (constant (F := Ideal) S1000x1 .f32 0x00000000#32) j)
      (broadcastTo S1000x1 (shapeCast S1x1 v6 shapeCasts_S1_S1x1) broadcasts_S1x1_S1000x1 j) = _
  rw [shapeCast_self, prod_apply, bias_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Where each window's block sits at point t: the activation rows and the result rows move together, one block
    of 1000 rows per point; the weights, the bias and every column axis stay at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

set_option maxHeartbeats 2000000 in
/-- What point t writes back is block t of headAt of the arrays as the region finds them. -/
theorem flushed_eq (c : Dev nD) (t : Fin cfg3.N) :
    (dat3 V c).flushed 3 t = ((cfg3.win 3).blk t).view.read (Elt Ideal) (Cert.Gcn.headAt (V c main_v87) (V c main_arg6) (V c main_arg7)) := by
  show (cfg3.win 3).cut (grid3.coords t) ((dat3 V c).after 3 t) = _
  rw [after3_3]
  unfold out3_3
  rw [View.canon_unit_zero hz]
  simp only [View.ld_unit_zero (S := S1000x896) hz, View.ld_unit_zero (S := S896x1) hz, View.ld_unit_zero (S := S1) hz1]
  obtain ⟨e0, e1, e2, e3, e4, e5, e6⟩ := idx_facts t
  funext j
  show k3_pay1 (F := Ideal) (iblk3 V c 0 t) (iblk3 V c 1 t) (iblk3 V c 2 t) j = Cert.Gcn.headAt (V c main_v87) (V c main_arg6) (V c main_arg7) (((cfg3.win 3).blk t).view.emb j)
  rw [pay_apply]
  unfold Cert.Gcn.headAt
  have h2 : ((cfg3.win 2).blk t).view.emb one = Cert.Gcn.only1 := by
    funext a; apply Fin.ext
    match a with
    | ⟨0, _⟩ => show win3_2.index t (0 : Fin 1) * 1 + 1 * 0 = 0; omega
  have a2 : iblk3 V c 2 t one = V c main_arg7 Cert.Gcn.only1 := by
    show V c main_arg7 (((cfg3.win 2).blk t).view.emb one) = _
    rw [h2]
  rw [a2]
  congr 1
  refine Finset.sum_congr rfl fun k _ => ?_
  have h0 : ((cfg3.win 0).blk t).view.emb (bl j k) = Cert.Gcn.lrow896 (((cfg3.win 3).blk t).view.emb j) k := by
    funext a; apply Fin.ext
    match a with
    | ⟨0, _⟩ => show win3_0.index t (0 : Fin 2) * 1000 + 1 * (j 0).val = win3_3.index t (0 : Fin 2) * 1000 + 1 * (j 0).val; omega
    | ⟨1, _⟩ => show win3_0.index t (1 : Fin 2) * 896 + 1 * k.val = k.val; omega
  have h1 : ((cfg3.win 1).blk t).view.emb (br j k) = Cert.Gcn.rcol896 (((cfg3.win 3).blk t).view.emb j) k := by
    funext a; apply Fin.ext
    match a with
    | ⟨0, _⟩ => show win3_1.index t (0 : Fin 2) * 896 + 1 * k.val = k.val; omega
    | ⟨1, _⟩ => show win3_1.index t (1 : Fin 2) * 1 + 1 * (j 1).val = win3_3.index t (1 : Fin 2) * 1 + 1 * (j 1).val; omega
  have a0 : iblk3 V c 0 t (bl j k) = V c main_v87 (Cert.Gcn.lrow896 (((cfg3.win 3).blk t).view.emb j) k) := by
    show V c main_v87 (((cfg3.win 0).blk t).view.emb (bl j k)) = _
    rw [h0]
  have a1 : iblk3 V c 1 t (br j k) = V c main_arg6 (Cert.Gcn.rcol896 (((cfg3.win 3).blk t).view.emb j) k) := by
    show V c main_arg6 (((cfg3.win 1).blk t).view.emb (br j k)) = _
    rw [h1]
  rw [a0, a1]

/-- An index of the result array lies in point t's block iff each coordinate lies in the block's range. -/
theorem mem_blk (t : Fin cfg3.N) (i : S50000x1.Idx) :
    i ∈ ((cfg3.win 3).blk t).view.set ↔ ∀ a : Fin 2, win3_3.index t a * S1000x1.size a ≤ (i a).val ∧ (i a).val < win3_3.index t a * S1000x1.size a + S1000x1.size a := by
  show i ∈ ((View.whole main_v88).slice (win3_3.rect t)).set ↔ _
  rw [View.set_slice_whole, Rect.mem_set_unit]
  exact Iff.rfl

/-- The blocks tile the result: row r lies in the block of point r / 1000. -/
theorem cover (i : S50000x1.Idx) : ∃ t : Fin cfg3.N, (cfg3.win 3).flush t = true ∧ i ∈ ((cfg3.win 3).blk t).view.set := by
  have hi0 : (i 0).val < 50000 := (i 0).isLt
  have hi1 : (i 1).val < 1 := (i 1).isLt
  have hN : cfg3.N = 50 := N_3
  let t : Fin cfg3.N := ⟨(i 0).val / 1000, by rw [hN]; omega⟩
  obtain ⟨e0, e1, e2, e3, e4, e5, e6⟩ := idx_facts t
  have ht : t.val = (i 0).val / 1000 := rfl
  refine ⟨t, flush3_3 t, ?_⟩
  rw [mem_blk]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 1 ≤ (i 1).val ∧ (i 1).val < win3_3.index t (1 : Fin 2) * 1 + 1; omega

/-- After the region the result array is a · Wfc + bfc of the arrays as the region finds them. -/
theorem final (c : Dev nD) :
    (dat3 V c).arrAt 3 cfg3.N = Cert.Gcn.headAt (V c main_v87) (V c main_arg6) (V c main_arg7) :=
  (dat3 V c).arrAt_eq_of_cover 3 _ (fun t _ => flushed_eq V c t) cover

end Cert.KernelIdeal.Layer3

end
-- ==== Proof.Fold.lean ====
/-
  The kernel's result, read back through the program.

  The program alternates stretches of host operations with four tiled regions. `Gen.W0 … Gen.W8` are a
  core's buffer contents at the nine boundaries: `W0` the launch memory, an odd one the host stretch applied
  to the previous, an even one the previous with the region's arrays replaced by what its write-backs leave.
  Reading the result buffer back through them:

  * the last region leaves `headAt` of the regrouped activations, the read-out weights and bias;
  * the regrouped activations are the one host reshape of what the third region leaves, `act2At` of the second
    aggregation and the second bias;
  * the second aggregation is the host stretch `agg` (one function, never opened) of what the second region
    leaves, `lin1At` of the first aggregation, and of the edge endpoints;
  * the first aggregation is the same host stretch of what the first region leaves, `lin0At` of the inputs;
  * the edge endpoints are two host slices of the edge list, computed before the first region and untouched
    since; every argument array is untouched throughout.

  A buffer a segment does not write keeps its contents: for a host stretch because none of its operations
  names it as a result, for a region because it is not one of the region's arrays.
-/
import proofs.«165334_j2345052144206_1_alg».proof.Proof.Gen.KernelIdeal.Frame
import proofs.«165334_j2345052144206_1_alg».proof.Proof.Spec
import proofs.«165334_j2345052144206_1_alg».proof.Proof.Entries
import proofs.«165334_j2345052144206_1_alg».proof.Proof.Region0
import proofs.«165334_j2345052144206_1_alg».proof.Proof.Region1
import proofs.«165334_j2345052144206_1_alg».proof.Proof.Region2
import proofs.«165334_j2345052144206_1_alg».proof.Proof.Region3
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo

/-- A host stretch none of whose operations writes the buffer leaves it as it was. -/
macro "host_keeps " b:term : tactic => `(tactic|
  exact StableHlo.after_of_forall_not_mem (b := Proc.devRef .tc $b) _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The host stretches as functions of the buffers they read -/

section Stretches

variable (W : Valuation τ sig (Elt Ideal))

/-- Before the first region: the source endpoints are row 0 of the edge list. -/
theorem stretch0_src : StableHlo.after hostOps0 W (Proc.devRef .tc main_v1) = Cert.Gcn.src (W (Proc.devRef .tc main_arg1)) := by
  dsimp only [hostOps0]
  after_results
  rfl

/-- Before the first region: the destination endpoints are row 1 of the edge list. -/
theorem stretch0_dst : StableHlo.after hostOps0 W (Proc.devRef .tc main_v3) = Cert.Gcn.dst (W (Proc.devRef .tc main_arg1)) := by
  dsimp only [hostOps0]
  after_results
  rfl

/-- Between the first and second regions: the aggregation of the first region's result along the edges. -/
theorem stretch1 : StableHlo.after hostOps1 W (Proc.devRef .tc main_v44)
    = Cert.Gcn.agg (W (Proc.devRef .tc main_v4)) (W (Proc.devRef .tc main_v1)) (W (Proc.devRef .tc main_v3)) := by
  dsimp only [hostOps1]
  after_results_simp
  rfl

/-- Between the second and third regions: the same aggregation of the second region's result. -/
theorem stretch2 : StableHlo.after hostOps2 W (Proc.devRef .tc main_v85)
    = Cert.Gcn.agg (W (Proc.devRef .tc main_v45)) (W (Proc.devRef .tc main_v1)) (W (Proc.devRef .tc main_v3)) := by
  dsimp only [hostOps2]
  after_results_simp
  rfl

/-- Between the third and fourth regions: each graph's node features laid side by side. -/
theorem stretch3 : StableHlo.after hostOps3 W (Proc.devRef .tc main_v87) = Cert.Gcn.regroup (W (Proc.devRef .tc main_v86)) := by
  dsimp only [hostOps3]
  after_results
  rfl

end Stretches

variable (m : (ℓ : Loc nD τ sig) → Buf (Elt Ideal) ℓ) (ρ : Dev nD → PrngReg) (c : Dev nD)

/-! ## Boundary 1: after the first host stretch -/

theorem W1_main_arg0 : W1 m ρ c (Proc.devRef .tc main_arg0) = m ((c : Thread nD τ).loc main_arg0) := by host_keeps main_arg0
theorem W1_main_arg2 : W1 m ρ c (Proc.devRef .tc main_arg2) = m ((c : Thread nD τ).loc main_arg2) := by host_keeps main_arg2
theorem W1_main_arg3 : W1 m ρ c (Proc.devRef .tc main_arg3) = m ((c : Thread nD τ).loc main_arg3) := by host_keeps main_arg3
theorem W1_main_arg4 : W1 m ρ c (Proc.devRef .tc main_arg4) = m ((c : Thread nD τ).loc main_arg4) := by host_keeps main_arg4
theorem W1_main_arg5 : W1 m ρ c (Proc.devRef .tc main_arg5) = m ((c : Thread nD τ).loc main_arg5) := by host_keeps main_arg5
theorem W1_main_arg6 : W1 m ρ c (Proc.devRef .tc main_arg6) = m ((c : Thread nD τ).loc main_arg6) := by host_keeps main_arg6
theorem W1_main_arg7 : W1 m ρ c (Proc.devRef .tc main_arg7) = m ((c : Thread nD τ).loc main_arg7) := by host_keeps main_arg7
theorem W1_main_v1 : W1 m ρ c (Proc.devRef .tc main_v1) = Cert.Gcn.src (m ((c : Thread nD τ).loc main_arg1)) := stretch0_src (W0 m ρ c)
theorem W1_main_v3 : W1 m ρ c (Proc.devRef .tc main_v3) = Cert.Gcn.dst (m ((c : Thread nD τ).loc main_arg1)) := stretch0_dst (W0 m ρ c)

/-! ## Boundary 2: after the first region -/

theorem W2_main_v1 : W2 m ρ c (Proc.devRef .tc main_v1) = W1 m ρ c (Proc.devRef .tc main_v1) := W2_of_ne m ρ c main_v1 (by decide)
theorem W2_main_v3 : W2 m ρ c (Proc.devRef .tc main_v3) = W1 m ρ c (Proc.devRef .tc main_v3) := W2_of_ne m ρ c main_v3 (by decide)
theorem W2_main_arg3 : W2 m ρ c (Proc.devRef .tc main_arg3) = W1 m ρ c (Proc.devRef .tc main_arg3) := W2_of_ne m ρ c main_arg3 (by decide)
theorem W2_main_arg4 : W2 m ρ c (Proc.devRef .tc main_arg4) = W1 m ρ c (Proc.devRef .tc main_arg4) := W2_of_ne m ρ c main_arg4 (by decide)
theorem W2_main_arg5 : W2 m ρ c (Proc.devRef .tc main_arg5) = W1 m ρ c (Proc.devRef .tc main_arg5) := W2_of_ne m ρ c main_arg5 (by decide)
theorem W2_main_arg6 : W2 m ρ c (Proc.devRef .tc main_arg6) = W1 m ρ c (Proc.devRef .tc main_arg6) := W2_of_ne m ρ c main_arg6 (by decide)
theorem W2_main_arg7 : W2 m ρ c (Proc.devRef .tc main_arg7) = W1 m ρ c (Proc.devRef .tc main_arg7) := W2_of_ne m ρ c main_arg7 (by decide)
theorem W2_main_v4 : W2 m ρ c (Proc.devRef .tc main_v4) = Cert.Gcn.lin0At (m ((c : Thread nD τ).loc main_arg0)) (m ((c : Thread nD τ).loc main_arg2)) := by
  refine (W2_arr m ρ c 2).trans ((Cert.KernelIdeal.Layer0.final (V1 m ρ) c).trans ?_)
  show Cert.Gcn.lin0At (W1 m ρ c (Proc.devRef .tc main_arg0)) (W1 m ρ c (Proc.devRef .tc main_arg2)) = _
  rw [W1_main_arg0, W1_main_arg2]

/-! ## Boundary 3: after the second host stretch -/

theorem W3_main_v1 : W3 m ρ c (Proc.devRef .tc main_v1) = W2 m ρ c (Proc.devRef .tc main_v1) := by host_keeps main_v1
theorem W3_main_v3 : W3 m ρ c (Proc.devRef .tc main_v3) = W2 m ρ c (Proc.devRef .tc main_v3) := by host_keeps main_v3
theorem W3_main_arg3 : W3 m ρ c (Proc.devRef .tc main_arg3) = W2 m ρ c (Proc.devRef .tc main_arg3) := by host_keeps main_arg3
theorem W3_main_arg4 : W3 m ρ c (Proc.devRef .tc main_arg4) = W2 m ρ c (Proc.devRef .tc main_arg4) := by host_keeps main_arg4
theorem W3_main_arg5 : W3 m ρ c (Proc.devRef .tc main_arg5) = W2 m ρ c (Proc.devRef .tc main_arg5) := by host_keeps main_arg5
theorem W3_main_arg6 : W3 m ρ c (Proc.devRef .tc main_arg6) = W2 m ρ c (Proc.devRef .tc main_arg6) := by host_keeps main_arg6
theorem W3_main_arg7 : W3 m ρ c (Proc.devRef .tc main_arg7) = W2 m ρ c (Proc.devRef .tc main_arg7) := by host_keeps main_arg7
theorem W3_main_v44 : W3 m ρ c (Proc.devRef .tc main_v44)
    = Cert.Gcn.agg (Cert.Gcn.lin0At (m ((c : Thread nD τ).loc main_arg0)) (m ((c : Thread nD τ).loc main_arg2))) (Cert.Gcn.src (m ((c : Thread nD τ).loc main_arg1))) (Cert.Gcn.dst (m ((c : Thread nD τ).loc main_arg1))) := by
  refine (stretch1 (W2 m ρ c)).trans ?_
  rw [W2_main_v4, W2_main_v1, W2_main_v3, W1_main_v1, W1_main_v3]

/-! ## Boundary 4: after the second region -/

theorem W4_main_v1 : W4 m ρ c (Proc.devRef .tc main_v1) = W3 m ρ c (Proc.devRef .tc main_v1) := W4_of_ne m ρ c main_v1 (by decide)
theorem W4_main_v3 : W4 m ρ c (Proc.devRef .tc main_v3) = W3 m ρ c (Proc.devRef .tc main_v3) := W4_of_ne m ρ c main_v3 (by decide)
theorem W4_main_arg5 : W4 m ρ c (Proc.devRef .tc main_arg5) = W3 m ρ c (Proc.devRef .tc main_arg5) := W4_of_ne m ρ c main_arg5 (by decide)
theorem W4_main_arg6 : W4 m ρ c (Proc.devRef .tc main_arg6) = W3 m ρ c (Proc.devRef .tc main_arg6) := W4_of_ne m ρ c main_arg6 (by decide)
theorem W4_main_arg7 : W4 m ρ c (Proc.devRef .tc main_arg7) = W3 m ρ c (Proc.devRef .tc main_arg7) := W4_of_ne m ρ c main_arg7 (by decide)
theorem W4_main_v45 : W4 m ρ c (Proc.devRef .tc main_v45)
    = Cert.Gcn.lin1At (Cert.Gcn.agg (Cert.Gcn.lin0At (m ((c : Thread nD τ).loc main_arg0)) (m ((c : Thread nD τ).loc main_arg2))) (Cert.Gcn.src (m ((c : Thread nD τ).loc main_arg1))) (Cert.Gcn.dst (m ((c : Thread nD τ).loc main_arg1)))) (m ((c : Thread nD τ).loc main_arg3)) (m ((c : Thread nD τ).loc main_arg4)) := by
  refine (W4_arr m ρ c 3).trans ((Cert.KernelIdeal.Layer1.final (V3 m ρ) c).trans ?_)
  show Cert.Gcn.lin1At (W3 m ρ c (Proc.devRef .tc main_v44)) (W3 m ρ c (Proc.devRef .tc main_arg3)) (W3 m ρ c (Proc.devRef .tc main_arg4)) = _
  rw [W3_main_v44, W3_main_arg3, W3_main_arg4, W2_main_arg3, W2_main_arg4, W1_main_arg3, W1_main_arg4]

/-! ## Boundary 5: after the third host stretch -/

theorem W5_main_arg5 : W5 m ρ c (Proc.devRef .tc main_arg5) = W4 m ρ c (Proc.devRef .tc main_arg5) := by host_keeps main_arg5
theorem W5_main_arg6 : W5 m ρ c (Proc.devRef .tc main_arg6) = W4 m ρ c (Proc.devRef .tc main_arg6) := by host_keeps main_arg6
theorem W5_main_arg7 : W5 m ρ c (Proc.devRef .tc main_arg7) = W4 m ρ c (Proc.devRef .tc main_arg7) := by host_keeps main_arg7
theorem W5_main_v85 : W5 m ρ c (Proc.devRef .tc main_v85)
    = Cert.Gcn.agg (Cert.Gcn.lin1At (Cert.Gcn.agg (Cert.Gcn.lin0At (m ((c : Thread nD τ).loc main_arg0)) (m ((c : Thread nD τ).loc main_arg2))) (Cert.Gcn.src (m ((c : Thread nD τ).loc main_arg1))) (Cert.Gcn.dst (m ((c : Thread nD τ).loc main_arg1)))) (m ((c : Thread nD τ).loc main_arg3)) (m ((c : Thread nD τ).loc main_arg4)))
        (Cert.Gcn.src (m ((c : Thread nD τ).loc main_arg1))) (Cert.Gcn.dst (m ((c : Thread nD τ).loc main_arg1))) := by
  refine (stretch2 (W4 m ρ c)).trans ?_
  rw [W4_main_v45, W4_main_v1, W4_main_v3, W3_main_v1, W3_main_v3, W2_main_v1, W2_main_v3, W1_main_v1, W1_main_v3]

/-! ## Boundary 6: after the third region -/

theorem W6_main_arg6 : W6 m ρ c (Proc.devRef .tc main_arg6) = W5 m ρ c (Proc.devRef .tc main_arg6) := W6_of_ne m ρ c main_arg6 (by decide)
theorem W6_main_arg7 : W6 m ρ c (Proc.devRef .tc main_arg7) = W5 m ρ c (Proc.devRef .tc main_arg7) := W6_of_ne m ρ c main_arg7 (by decide)
theorem W6_main_v86 : W6 m ρ c (Proc.devRef .tc main_v86)
    = Cert.Gcn.act2At (Cert.Gcn.agg (Cert.Gcn.lin1At (Cert.Gcn.agg (Cert.Gcn.lin0At (m ((c : Thread nD τ).loc main_arg0)) (m ((c : Thread nD τ).loc main_arg2))) (Cert.Gcn.src (m ((c : Thread nD τ).loc main_arg1))) (Cert.Gcn.dst (m ((c : Thread nD τ).loc main_arg1)))) (m ((c : Thread nD τ).loc main_arg3)) (m ((c : Thread nD τ).loc main_arg4)))
        (Cert.Gcn.src (m ((c : Thread nD τ).loc main_arg1))) (Cert.Gcn.dst (m ((c : Thread nD τ).loc main_arg1)))) (m ((c : Thread nD τ).loc main_arg5)) := by
  refine (W6_arr m ρ c 2).trans ((Cert.KernelIdeal.Layer2.final (V5 m ρ) c).trans ?_)
  show Cert.Gcn.act2At (W5 m ρ c (Proc.devRef .tc main_v85)) (W5 m ρ c (Proc.devRef .tc main_arg5)) = _
  rw [W5_main_v85, W5_main_arg5, W4_main_arg5, W3_main_arg5, W2_main_arg5, W1_main_arg5]

/-! ## Boundary 7: after the fourth host stretch -/

theorem W7_main_arg6 : W7 m ρ c (Proc.devRef .tc main_arg6) = W6 m ρ c (Proc.devRef .tc main_arg6) := by host_keeps main_arg6
theorem W7_main_arg7 : W7 m ρ c (Proc.devRef .tc main_arg7) = W6 m ρ c (Proc.devRef .tc main_arg7) := by host_keeps main_arg7
theorem W7_main_v87 : W7 m ρ c (Proc.devRef .tc main_v87)
    = Cert.Gcn.regroup (Cert.Gcn.act2At (Cert.Gcn.agg (Cert.Gcn.lin1At (Cert.Gcn.agg (Cert.Gcn.lin0At (m ((c : Thread nD τ).loc main_arg0)) (m ((c : Thread nD τ).loc main_arg2))) (Cert.Gcn.src (m ((c : Thread nD τ).loc main_arg1))) (Cert.Gcn.dst (m ((c : Thread nD τ).loc main_arg1)))) (m ((c : Thread nD τ).loc main_arg3)) (m ((c : Thread nD τ).loc main_arg4)))
        (Cert.Gcn.src (m ((c : Thread nD τ).loc main_arg1))) (Cert.Gcn.dst (m ((c : Thread nD τ).loc main_arg1)))) (m ((c : Thread nD τ).loc main_arg5))) := by
  refine (stretch3 (W6 m ρ c)).trans ?_
  rw [W6_main_v86]

/-! ## Boundary 8: after the last region -/

/-- The result buffer ends at the network's layers applied in turn to the argument arrays as launched. -/
theorem W8_main_v88 : W8 m ρ c (Proc.devRef .tc main_v88)
    = Cert.Gcn.headAt (Cert.Gcn.regroup (Cert.Gcn.act2At (Cert.Gcn.agg (Cert.Gcn.lin1At (Cert.Gcn.agg (Cert.Gcn.lin0At (m ((c : Thread nD τ).loc main_arg0)) (m ((c : Thread nD τ).loc main_arg2))) (Cert.Gcn.src (m ((c : Thread nD τ).loc main_arg1))) (Cert.Gcn.dst (m ((c : Thread nD τ).loc main_arg1)))) (m ((c : Thread nD τ).loc main_arg3)) (m ((c : Thread nD τ).loc main_arg4)))
        (Cert.Gcn.src (m ((c : Thread nD τ).loc main_arg1))) (Cert.Gcn.dst (m ((c : Thread nD τ).loc main_arg1)))) (m ((c : Thread nD τ).loc main_arg5)))) (m ((c : Thread nD τ).loc main_arg6)) (m ((c : Thread nD τ).loc main_arg7)) := by
  refine (W8_arr m ρ c 3).trans ((Cert.KernelIdeal.Layer3.final (V7 m ρ) c).trans ?_)
  show Cert.Gcn.headAt (W7 m ρ c (Proc.devRef .tc main_v87)) (W7 m ρ c (Proc.devRef .tc main_arg6)) (W7 m ρ c (Proc.devRef .tc main_arg7)) = _
  rw [W7_main_v87, W7_main_arg6, W7_main_arg7, W6_main_arg6, W6_main_arg7, W5_main_arg6, W5_main_arg7, W4_main_arg6, W4_main_arg7,
    W3_main_arg6, W3_main_arg7, W2_main_arg6, W2_main_arg7, W1_main_arg6, W1_main_arg7]

end Cert.KernelIdeal.Walk

end
-- ==== Proof.SpecAt.lean ====
/-
  The four dense pieces of the network read at one entry, over the extended reals.

  Over the extended reals a host matrix product is the plain sum over the contracted axis, a bias row
  broadcast over the nodes is the bias entry of the feature, and the positive part is the maximum
  with the constant 0.0 (kept as the literal it is written with). Hence, for a node n, a feature f
  and a graph g,

      (x · W1)(n, f)                 = Σ_{k < 32}  x(n, k) · W1(k, f)
      (relu (a + b) · W2)(n, f)      = Σ_{k < 64}  max (a(n, k) + b(k)) 0 · W2(k, f)
      relu (a + b)(n, f)             = max (a(n, f) + b(f)) 0
      (a · Wfc + bfc)(g, 0)          = Σ_{k < 896} a(g, k) · Wfc(k, 0)  +  bfc(0) .

  The coordinates a product's entry reads are the ones computed for the same contractions in the
  generated reading of the reference (the lhs_main_ and rhs_main_ lemmas), used here as they are.
-/
import proofs.«165334_j2345052144206_1_alg».proof.Proof.Spec
import proofs.«165334_j2345052144206_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Gcn

open Cert.ReferenceIdeal Cert.ReferenceIdeal.Gen Cert.ReferenceIdeal.Read Idealize.ShloMosaic Idealize.ShloMosaic.TcCoe Idealize.SL.Sem Idealize.ShloMosaic.StableHlo

/-! ## Broadcasts read at an entry -/

/-- A bias row broadcast over all nodes, read at (n, f), is the bias entry of feature f. -/
theorem biasRow_apply {F : FTy → Type} [FloatOps F] (b : (⟨S64, .f32⟩ : BufTy).Contents (Elt F)) (i : S700000x64.Idx) :
    broadcastInDim S700000x64 ![0, 1] bcast_S1x64_S700000x64_0_1 (broadcastInDim S1x64 ![1] bcast_S64_S1x64_1 b) i = b (feat i) := by
  have h1 : broadcastInDim S700000x64 ![0, 1] bcast_S1x64_S700000x64_0_1 (broadcastInDim S1x64 ![1] bcast_S64_S1x64_1 b) i
      = broadcastInDim S1x64 ![1] bcast_S64_S1x64_1 b (idx_main_v46 i) := val_main_v46_apply (F := F) b i
  have h2 : broadcastInDim S1x64 ![1] bcast_S64_S1x64_1 b (idx_main_v46 i) = b (idx_main_v45 (idx_main_v46 i)) :=
    val_main_v45_apply (F := F) b (idx_main_v46 i)
  rw [h1, h2]
  exact congrArg b (funext fun a => Fin.ext (by
    match a with
    | ⟨0, _⟩ => rfl))

/-- The constant 0.0 spread over all nodes and features, read at any entry, is that constant. -/
theorem zeroSplat_apply {F : FTy → Type} [FloatOps F] (i : S700000x64.Idx) :
    broadcastInDim S700000x64 ![] bcast_S_S700000x64 (constant S_ .f32 0x00000000#32 : (⟨S_, .f32⟩ : BufTy).Contents (Elt F)) i
      = FloatOps.ofBits .f32 0x00000000#32 := by
  have h1 : broadcastInDim S700000x64 ![] bcast_S_S700000x64 (constant S_ .f32 0x00000000#32 : (⟨S_, .f32⟩ : BufTy).Contents (Elt F)) i
      = (constant S_ .f32 0x00000000#32 : (⟨S_, .f32⟩ : BufTy).Contents (Elt F)) (idx_main_call0_v0 i) := val_main_call0_v0_apply (F := F) i
  rw [h1]
  rfl

/-- The read-out bias broadcast over all graphs, read at any graph, is its one entry. -/
theorem biasOne_apply {F : FTy → Type} [FloatOps F] (b : (⟨S1, .f32⟩ : BufTy).Contents (Elt F)) (i : S50000x1.Idx) :
    broadcastInDim S50000x1 ![0, 1] bcast_S1x1_S50000x1_0_1 (broadcastInDim S1x1 ![1] bcast_S1_S1x1_1 b) i = b only1 := by
  have h1 : broadcastInDim S50000x1 ![0, 1] bcast_S1x1_S50000x1_0_1 (broadcastInDim S1x1 ![1] bcast_S1_S1x1_1 b) i
      = broadcastInDim S1x1 ![1] bcast_S1_S1x1_1 b (idx_main_v97 i) := val_main_v97_apply (F := F) b i
  have h2 : broadcastInDim S1x1 ![1] bcast_S1_S1x1_1 b (idx_main_v97 i) = b (idx_main_v96 (idx_main_v97 i)) :=
    val_main_v96_apply (F := F) b (idx_main_v97 i)
  rw [h1, h2]
  exact congrArg b (funext fun a => Fin.ext (by
    match a with
    | ⟨0, _⟩ => rfl))

/-- An entry (n, f) of a + b, the bias row b added to every node, is a(n, f) plus the bias entry of f. -/
theorem biasAdd_apply {F : FTy → Type} [FloatOps F] (a : (⟨S700000x64, .f32⟩ : BufTy).Contents (Elt F)) (b : (⟨S64, .f32⟩ : BufTy).Contents (Elt F)) (i : S700000x64.Idx) :
    biasAdd (F := F) a b i = FloatOps.addf (a i) (b (feat i)) :=
  congrArg (FloatOps.addf (a i)) (biasRow_apply b i)

/-- An entry of the positive part of a is the larger of that entry of a and the constant 0.0. -/
theorem relu_apply {F : FTy → Type} [FloatOps F] (a : (⟨S700000x64, .f32⟩ : BufTy).Contents (Elt F)) (i : S700000x64.Idx) :
    relu (F := F) a i = FloatOps.maximumf (a i) (FloatOps.ofBits .f32 0x00000000#32) :=
  congrArg (FloatOps.maximumf (a i)) (zeroSplat_apply i)

/-! ## The three matrix products read at an entry -/

/-- An entry (n, f) of a 700000 × 64 by 64 × 64 product is the sum over the 64 contracted features k of
    the left factor at (n, k) times the right factor at (k, f). -/
theorem dot64_apply (y : (⟨S700000x64, .f32⟩ : BufTy).Contents (Elt Ideal)) (w : (⟨S64x64, .f32⟩ : BufTy).Contents (Elt Ideal)) (i : S700000x64.Idx) :
    Host.dotGeneral (F := Ideal) (φ₁ := .f32) (φ₂ := .f32) dot_S700000x64_S64x64_S700000x64_1_0_0_1_n_n none y w i = ∑ k : Fin 64, y (lrow64 i k) * w (rcol64 i k) := by
  simp only [Host.dotGeneral]
  rw [Ideal.dotGeneral_apply, ← Equiv.sum_comp (ValueIdx.contrEquiv1 dot_S700000x64_S64x64_S700000x64_1_0_0_1_n_n 64 rfl rfl).symm]
  refine Finset.sum_congr rfl fun k _ => ?_
  have hk := ValueIdx.contrEquiv1_symm_val dot_S700000x64_S64x64_S700000x64_1_0_0_1_n_n 64 rfl rfl k
  have el : dot_S700000x64_S64x64_S700000x64_1_0_0_1_n_n.lhsIdx i ((ValueIdx.contrEquiv1 dot_S700000x64_S64x64_S700000x64_1_0_0_1_n_n 64 rfl rfl).symm k) = lrow64 i k := funext fun a => Fin.ext (by
    match a with
    | ⟨0, _⟩ => exact lhs_main_v49_0 _ _
    | ⟨1, _⟩ => exact (lhs_main_v49_1 _ _).trans hk)
  have er : dot_S700000x64_S64x64_S700000x64_1_0_0_1_n_n.rhsIdx i ((ValueIdx.contrEquiv1 dot_S700000x64_S64x64_S700000x64_1_0_0_1_n_n 64 rfl rfl).symm k) = rcol64 i k := funext fun a => Fin.ext (by
    match a with
    | ⟨0, _⟩ => exact (rhs_main_v49_0 _ _).trans hk
    | ⟨1, _⟩ => exact rhs_main_v49_1 _ _)
  rw [el, er]

/-- An entry (g, 0) of a 50000 × 896 by 896 × 1 product is the sum over the 896 contracted columns k of
    the left factor at (g, k) times the right factor at (k, 0). -/
theorem dot896_apply (y : (⟨S50000x896, .f32⟩ : BufTy).Contents (Elt Ideal)) (w : (⟨S896x1, .f32⟩ : BufTy).Contents (Elt Ideal)) (i : S50000x1.Idx) :
    Host.dotGeneral (F := Ideal) (φ₁ := .f32) (φ₂ := .f32) dot_S50000x896_S896x1_S50000x1_1_0_0_1_n_n none y w i = ∑ k : Fin 896, y (lrow896 i k) * w (rcol896 i k) := by
  simp only [Host.dotGeneral]
  rw [Ideal.dotGeneral_apply, ← Equiv.sum_comp (ValueIdx.contrEquiv1 dot_S50000x896_S896x1_S50000x1_1_0_0_1_n_n 896 rfl rfl).symm]
  refine Finset.sum_congr rfl fun k _ => ?_
  have hk := ValueIdx.contrEquiv1_symm_val dot_S50000x896_S896x1_S50000x1_1_0_0_1_n_n 896 rfl rfl k
  have el : dot_S50000x896_S896x1_S50000x1_1_0_0_1_n_n.lhsIdx i ((ValueIdx.contrEquiv1 dot_S50000x896_S896x1_S50000x1_1_0_0_1_n_n 896 rfl rfl).symm k) = lrow896 i k := funext fun a => Fin.ext (by
    match a with
    | ⟨0, _⟩ => exact lhs_main_v95_0 _ _
    | ⟨1, _⟩ => exact (lhs_main_v95_1 _ _).trans hk)
  have er : dot_S50000x896_S896x1_S50000x1_1_0_0_1_n_n.rhsIdx i ((ValueIdx.contrEquiv1 dot_S50000x896_S896x1_S50000x1_1_0_0_1_n_n 896 rfl rfl).symm k) = rcol896 i k := funext fun a => Fin.ext (by
    match a with
    | ⟨0, _⟩ => exact (rhs_main_v95_0 _ _).trans hk
    | ⟨1, _⟩ => exact rhs_main_v95_1 _ _)
  rw [el, er]

/-! ## The four pieces -/

/-- An entry (n, f) of x · W1 is the sum over the 32 input features k of x(n, k) · W1(k, f). -/
theorem lin0_apply (x : (⟨S700000x32, .f32⟩ : BufTy).Contents (Elt Ideal)) (w : (⟨S32x64, .f32⟩ : BufTy).Contents (Elt Ideal)) (i : S700000x64.Idx) :
    lin0 (F := Ideal) x w i = ∑ k : Fin 32, x (lrow32 i k) * w (rcol32 i k) := by
  unfold lin0
  simp only [Host.dotGeneral]
  rw [Ideal.dotGeneral_apply, ← Equiv.sum_comp (ValueIdx.contrEquiv1 dot_S700000x32_S32x64_S700000x64_1_0_0_1_n_n 32 rfl rfl).symm]
  refine Finset.sum_congr rfl fun k _ => ?_
  have hk := ValueIdx.contrEquiv1_symm_val dot_S700000x32_S32x64_S700000x64_1_0_0_1_n_n 32 rfl rfl k
  have el : dot_S700000x32_S32x64_S700000x64_1_0_0_1_n_n.lhsIdx i ((ValueIdx.contrEquiv1 dot_S700000x32_S32x64_S700000x64_1_0_0_1_n_n 32 rfl rfl).symm k) = lrow32 i k := funext fun a => Fin.ext (by
    match a with
    | ⟨0, _⟩ => exact lhs_main_v4_0 _ _
    | ⟨1, _⟩ => exact (lhs_main_v4_1 _ _).trans hk)
  have er : dot_S700000x32_S32x64_S700000x64_1_0_0_1_n_n.rhsIdx i ((ValueIdx.contrEquiv1 dot_S700000x32_S32x64_S700000x64_1_0_0_1_n_n 32 rfl rfl).symm k) = rcol32 i k := funext fun a => Fin.ext (by
    match a with
    | ⟨0, _⟩ => exact (rhs_main_v4_0 _ _).trans hk
    | ⟨1, _⟩ => exact rhs_main_v4_1 _ _)
  rw [el, er]

/-- An entry (n, f) of relu (a + b) is the larger of a(n, f) + b(f) and the constant 0.0. -/
theorem act2_apply (a : (⟨S700000x64, .f32⟩ : BufTy).Contents (Elt Ideal)) (b : (⟨S64, .f32⟩ : BufTy).Contents (Elt Ideal)) (i : S700000x64.Idx) :
    act2 (F := Ideal) a b i = max (a i + b (feat i)) (Ideal.ofBits .f32 0x00000000#32) := by
  unfold act2
  rw [relu_apply, biasAdd_apply]
  rfl

/-- An entry (n, f) of relu (a + b) · W2 is the sum over the 64 hidden features k of
    max (a(n, k) + b(k)) 0 · W2(k, f). -/
theorem lin1_apply (a : (⟨S700000x64, .f32⟩ : BufTy).Contents (Elt Ideal)) (b : (⟨S64, .f32⟩ : BufTy).Contents (Elt Ideal)) (w : (⟨S64x64, .f32⟩ : BufTy).Contents (Elt Ideal)) (i : S700000x64.Idx) :
    lin1 (F := Ideal) a b w i = ∑ k : Fin 64, max (a (lrow64 i k) + b (featK k)) (Ideal.ofBits .f32 0x00000000#32) * w (rcol64 i k) := by
  have hy : ∀ j : S700000x64.Idx, relu (F := Ideal) (biasAdd a b) j = max (a j + b (feat j)) (Ideal.ofBits .f32 0x00000000#32) :=
    fun j => act2_apply a b j
  unfold lin1
  rw [dot64_apply]
  refine Finset.sum_congr rfl fun k _ => ?_
  have hf : feat (lrow64 i k) = featK k := funext fun a => Fin.ext (by
    match a with
    | ⟨0, _⟩ => rfl)
  rw [hy, hf]

/-- An entry (g, 0) of a · Wfc + bfc is the sum over the 896 columns k of a(g, k) · Wfc(k, 0), plus the
    one bias entry. -/
theorem head_apply (a : (⟨S50000x896, .f32⟩ : BufTy).Contents (Elt Ideal)) (w : (⟨S896x1, .f32⟩ : BufTy).Contents (Elt Ideal)) (b : (⟨S1, .f32⟩ : BufTy).Contents (Elt Ideal)) (i : S50000x1.Idx) :
    head (F := Ideal) a w b i = (∑ k : Fin 896, a (lrow896 i k) * w (rcol896 i k)) + b only1 := by
  unfold head
  show FloatOps.addf (Host.dotGeneral (F := Ideal) (φ₁ := .f32) (φ₂ := .f32) dot_S50000x896_S896x1_S50000x1_1_0_0_1_n_n none a w i) _ = _
  rw [dot896_apply, biasOne_apply]
  rfl

end Cert.Gcn

end
-- ==== Proof.Net.lean ====
/-
  The idealized kernel computes the network.

  Read back through the program, the result buffer ends at the four tiled layers — each an entry-by-entry sum
  or maximum over the extended reals — interleaved with the host's aggregation and regrouping, all applied to
  the argument arrays as launched. Entry by entry each tiled layer IS the corresponding host layer of the
  network: a product of two matrices is the same sum over the contracted axis whether it is taken block of
  rows by block of rows or at once, and adding a bias row and taking the positive part act on each entry
  alone. No rearrangement of a sum is needed beyond that, so nothing here depends on the inputs being finite.
-/
import proofs.«165334_j2345052144206_1_alg».proof.Proof.KernelRun
import proofs.«165334_j2345052144206_1_alg».proof.Proof.Fold
import proofs.«165334_j2345052144206_1_alg».proof.Proof.SpecAt

set_option maxRecDepth 16384

noncomputable section

namespace Cert.KernelIdeal.Result

open Cert.KernelIdeal Cert.KernelIdeal.Gen Idealize.ShloMosaic Idealize.ShloMosaic.TcCoe Idealize.SL.Sem

/-- The block-by-block product `x · W1` is the host's. -/
theorem lin0At_eq (x) (w) : Cert.Gcn.lin0At x w = Cert.Gcn.lin0 (F := Ideal) x w :=
  funext fun i => (Cert.Gcn.lin0_apply x w i).symm
/-- The block-by-block `relu (a + b) · W2` is the host's. -/
theorem lin1At_eq (a) (b) (w) : Cert.Gcn.lin1At a b w = Cert.Gcn.lin1 (F := Ideal) a b w :=
  funext fun i => (Cert.Gcn.lin1_apply a b w i).symm
/-- The block-by-block `relu (a + b)` is the host's. -/
theorem act2At_eq (a) (b) : Cert.Gcn.act2At a b = Cert.Gcn.act2 (F := Ideal) a b :=
  funext fun i => (Cert.Gcn.act2_apply a b i).symm
/-- The block-by-block read-out `a · Wfc + bfc` is the host's. -/
theorem headAt_eq (a) (w) (b) : Cert.Gcn.headAt a w b = Cert.Gcn.head (F := Ideal) a w b :=
  funext fun i => (Cert.Gcn.head_apply a w b i).symm

variable (m : (ℓ : Loc nD τ sig) → Buf (Elt Ideal) ℓ) (ρ : Dev nD → PrngReg)

/-- The result buffer ends at the network of the argument arrays as launched. -/
theorem result_net (c : Dev nD) : W8 m ρ c (Proc.devRef .tc main_v88)
    = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.KernelIdeal.Walk.W8_main_v88, lin0At_eq, lin1At_eq, act2At_eq, headAt_eq]
  rfl

/-- The run, re-posted: the result is the network of the arguments, the arguments end as launched. -/
theorem run_net : θ_run defs (onTc (τ := τ) (main (F := Ideal))) ⟨m, fun _ => 0, ρ⟩ (fun r => ∀ c : Dev nD,
      r.2.mem ((c.tc : Thread nD τ).loc main_v88)
        = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_net m ρ c), (h c).2⟩) (run (F := Ideal) m ρ)

end Cert.KernelIdeal.Result

end
-- ==== Proof.RefNet.lean ====
/-
  The reference program computes the network.

  The reference applies, one operation at a time, the slices and reshapes that split the edge list
  into sources and destinations, the wrap of negative endpoints, the degree count and its reciprocal
  root, two aggregations (gather along the sources, scale by dinv(s) · dinv(d), scatter-add over the
  destinations, plus the self loop), two dense layers with bias and positive part, the regrouping of
  the node rows by graph and the linear read-out. The network of the specification is the same
  composition with the repeated sub-computations named once (src, dst, wrap, dinv, agg, lin0, lin1,
  act2, regroup, head). So each stage below is an equation between two spellings of one term, and the
  value of the last operation is the network of the eight arguments.
-/
import proofs.«165334_j2345052144206_1_alg».proof.Proof.Spec
import proofs.«165334_j2345052144206_1_alg».proof.Proof.Gen.ReferenceIdeal.Read

noncomputable section

namespace Cert.Gcn

open Cert.ReferenceIdeal Cert.ReferenceIdeal.Gen Cert.ReferenceIdeal.Read Idealize.ShloMosaic

variable {F : FTy → Type} [FloatOps F]

/-! ## The edge list -/

/-- Operation 1 yields the source endpoints. -/
theorem v1_eq (x1 : (⟨S2x4000000, .i32⟩ : BufTy).Contents (Elt F)) : val_main_v1 (F := F) x1 = src x1 := rfl

/-- Operation 3 yields the destination endpoints. -/
theorem v3_eq (x1 : (⟨S2x4000000, .i32⟩ : BufTy).Contents (Elt F)) : val_main_v3 (F := F) x1 = dst x1 := rfl

/-- Operations 12 to 16 wrap the sources. -/
theorem v16_eq (x1 : (⟨S2x4000000, .i32⟩ : BufTy).Contents (Elt F)) : val_main_v16 (F := F) x1 = wrap (src x1) := rfl

/-- Operations 19 to 23 wrap the destinations. -/
theorem v23_eq (x1 : (⟨S2x4000000, .i32⟩ : BufTy).Contents (Elt F)) : val_main_v23 (F := F) x1 = wrap (dst x1) := rfl

/-- Operations 27 to 31 wrap the sources again. -/
theorem v31_eq (x1 : (⟨S2x4000000, .i32⟩ : BufTy).Contents (Elt F)) : val_main_v31 (F := F) x1 = wrap (src x1) := rfl

/-- Operations 5 to 11 yield the reciprocal root of the degrees. -/
theorem v11_eq (x1 : (⟨S2x4000000, .i32⟩ : BufTy).Contents (Elt F)) : val_main_v11 (F := F) x1 = dinv (dst x1) := rfl

/-! ## The first layer -/

/-- Operation 4 is the first dense layer. -/
theorem v4_eq (x0 : (⟨S700000x32, .f32⟩ : BufTy).Contents (Elt F)) (x2 : (⟨S32x64, .f32⟩ : BufTy).Contents (Elt F)) : val_main_v4 (F := F) x0 x2 = lin0 x0 x2 := rfl

/-- Operations 12 to 44 aggregate the first dense layer along the edges. -/
theorem v44_eq (x0 : (⟨S700000x32, .f32⟩ : BufTy).Contents (Elt F)) (x1 : (⟨S2x4000000, .i32⟩ : BufTy).Contents (Elt F)) (x2 : (⟨S32x64, .f32⟩ : BufTy).Contents (Elt F)) :
    val_main_v44 (F := F) x0 x1 x2 = agg (lin0 x0 x2) (src x1) (dst x1) := by
  unfold val_main_v44 val_main_v39 val_main_v43 val_main_v42 val_main_v41 val_main_v40 val_main_v38 val_main_v37 val_main_cst_7
    val_main_v36 val_main_v35 val_main_v34 val_main_v33 val_main_v32 val_main_v26 val_main_v25 val_main_v24 val_main_v18 val_main_v17
  rw [v31_eq, v23_eq, v16_eq, v11_eq, v4_eq, v3_eq]
  rfl

/-- Operations 45 to 49 add the first bias, take the positive part and apply the second dense layer. -/
theorem v49_eq (x0 : (⟨S700000x32, .f32⟩ : BufTy).Contents (Elt F)) (x1 : (⟨S2x4000000, .i32⟩ : BufTy).Contents (Elt F)) (x2 : (⟨S32x64, .f32⟩ : BufTy).Contents (Elt F)) (x3 : (⟨S64, .f32⟩ : BufTy).Contents (Elt F)) (x4 : (⟨S64x64, .f32⟩ : BufTy).Contents (Elt F)) :
    val_main_v49 (F := F) x0 x1 x2 x3 x4 = lin1 (val_main_v44 (F := F) x0 x1 x2) x3 x4 := rfl

/-! ## The second layer -/

/-- Operations 50 to 56 yield the reciprocal root of the degrees again. -/
theorem v56_eq (x1 : (⟨S2x4000000, .i32⟩ : BufTy).Contents (Elt F)) : val_main_v56 (F := F) x1 = dinv (dst x1) := rfl

/-- Operations 57 to 61 wrap the sources. -/
theorem v61_eq (x1 : (⟨S2x4000000, .i32⟩ : BufTy).Contents (Elt F)) : val_main_v61 (F := F) x1 = wrap (src x1) := rfl

/-- Operations 64 to 68 wrap the destinations. -/
theorem v68_eq (x1 : (⟨S2x4000000, .i32⟩ : BufTy).Contents (Elt F)) : val_main_v68 (F := F) x1 = wrap (dst x1) := rfl

/-- Operations 72 to 76 wrap the sources again. -/
theorem v76_eq (x1 : (⟨S2x4000000, .i32⟩ : BufTy).Contents (Elt F)) : val_main_v76 (F := F) x1 = wrap (src x1) := rfl

/-- Operations 57 to 89 aggregate the second dense layer along the edges. -/
theorem v89_eq (x0 : (⟨S700000x32, .f32⟩ : BufTy).Contents (Elt F)) (x1 : (⟨S2x4000000, .i32⟩ : BufTy).Contents (Elt F)) (x2 : (⟨S32x64, .f32⟩ : BufTy).Contents (Elt F)) (x3 : (⟨S64, .f32⟩ : BufTy).Contents (Elt F)) (x4 : (⟨S64x64, .f32⟩ : BufTy).Contents (Elt F)) :
    val_main_v89 (F := F) x0 x1 x2 x3 x4 = agg (val_main_v49 (F := F) x0 x1 x2 x3 x4) (src x1) (dst x1) := by
  unfold val_main_v89 val_main_v84 val_main_v88 val_main_v87 val_main_v86 val_main_v85 val_main_v83 val_main_v82 val_main_cst_17
    val_main_v81 val_main_v80 val_main_v79 val_main_v78 val_main_v77 val_main_v71 val_main_v70 val_main_v69 val_main_v63 val_main_v62
  rw [v76_eq, v68_eq, v61_eq, v56_eq, v3_eq]
  rfl

/-- Operations 90 to 93 add the second bias and take the positive part. -/
theorem v93_eq (x0 : (⟨S700000x32, .f32⟩ : BufTy).Contents (Elt F)) (x1 : (⟨S2x4000000, .i32⟩ : BufTy).Contents (Elt F)) (x2 : (⟨S32x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) :
    val_main_v93 (F := F) x0 x1 x2 x3 x4 x5 = act2 (val_main_v89 (F := F) x0 x1 x2 x3 x4) x5 := rfl

/-! ## The read-out -/

/-- Operation 94 regroups the node rows by graph. -/
theorem v94_eq (x0 : (⟨S700000x32, .f32⟩ : BufTy).Contents (Elt F)) (x1 : (⟨S2x4000000, .i32⟩ : BufTy).Contents (Elt F)) (x2 : (⟨S32x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) :
    val_main_v94 (F := F) x0 x1 x2 x3 x4 x5 = regroup (val_main_v93 (F := F) x0 x1 x2 x3 x4 x5) := rfl

/-- Operations 95 to 98 are the linear read-out. -/
theorem v98_eq (x0 : (⟨S700000x32, .f32⟩ : BufTy).Contents (Elt F)) (x1 : (⟨S2x4000000, .i32⟩ : BufTy).Contents (Elt F)) (x2 : (⟨S32x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S896x1, .f32⟩ : BufTy).Contents (Elt F)) (x7 : (⟨S1, .f32⟩ : BufTy).Contents (Elt F)) :
    val_main_v98 (F := F) x0 x1 x2 x3 x4 x5 x6 x7 = head (val_main_v94 (F := F) x0 x1 x2 x3 x4 x5) x6 x7 := rfl

/-- The value of the reference's last operation is the network of its eight arguments. -/
theorem ref_is_net (x0 : (⟨S700000x32, .f32⟩ : BufTy).Contents (Elt F)) (x1 : (⟨S2x4000000, .i32⟩ : BufTy).Contents (Elt F)) (x2 : (⟨S32x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S896x1, .f32⟩ : BufTy).Contents (Elt F)) (x7 : (⟨S1, .f32⟩ : BufTy).Contents (Elt F)) :
    Cert.ReferenceIdeal.Read.val_main_v98 (F := F) x0 x1 x2 x3 x4 x5 x6 x7 = net x0 x1 x2 x3 x4 x5 x6 x7 := by
  rw [v98_eq, v94_eq, v93_eq, v89_eq, v49_eq, v44_eq]
  rfl

end Cert.Gcn

end
-- ==== Proof.lean ====
/-
  Kernel against reference: a two-layer graph convolution with a linear read-out.

  The kernel tiles the four dense stages (`x·W1`; bias, positive part and `·W2`; bias and positive part; the
  read-out `·Wfc + bfc`) over blocks of rows and leaves the two edge aggregations and the regrouping of node
  features per graph to host operations; the reference is host operations throughout, in the same order.
  Over the extended reals both compute ONE function of the eight argument arrays, `Gcn.net`:

  * the reference by unfolding — its operations are the pieces of `net` one after the other (`Gcn.ref_is_net`);
  * the kernel because each tiled stage leaves, block by block, the same entries as the host stage
    (a product of matrices is the same sum over the contracted axis taken block of rows by block of rows;
    bias and positive part act entry by entry), the blocks tile their arrays, and the host stretches between
    the regions are the aggregation and regrouping of `net` themselves (`KernelIdeal.Result.run_net`).

  No sum is re-associated across blocks and no factor moved across a sum, so the equality holds at every
  input; the precondition (finite inputs) is not used. The three frames are the generated ones (the
  reference's: its generated run with the result dropped), and the idealization rewrote nothing.
-/
import proofs.«165334_j2345052144206_1_alg».proof.Defs
import proofs.«165334_j2345052144206_1_alg».proof.Proof.Gen.Kernel
import proofs.«165334_j2345052144206_1_alg».proof.Proof.Gen.Kernel.Skeleton
import proofs.«165334_j2345052144206_1_alg».proof.Proof.Gen.Kernel.Launch
import proofs.«165334_j2345052144206_1_alg».proof.Proof.Gen.Kernel.Points
import proofs.«165334_j2345052144206_1_alg».proof.Proof.Gen.Kernel.Frame
import proofs.«165334_j2345052144206_1_alg».proof.Proof.Gen.KernelIdeal
import proofs.«165334_j2345052144206_1_alg».proof.Proof.Gen.KernelIdeal.Skeleton
import proofs.«165334_j2345052144206_1_alg».proof.Proof.Gen.KernelIdeal.Launch
import proofs.«165334_j2345052144206_1_alg».proof.Proof.Gen.KernelIdeal.Points
import proofs.«165334_j2345052144206_1_alg».proof.Proof.Gen.KernelIdeal.Frame
import proofs.«165334_j2345052144206_1_alg».proof.Proof.Gen.ReferenceIdeal
import proofs.«165334_j2345052144206_1_alg».proof.Proof.Gen.ReferenceIdeal.Run
import proofs.«165334_j2345052144206_1_alg».proof.Proof.Gen.ReferenceIdeal.Read
import proofs.«165334_j2345052144206_1_alg».proof.Proof.Gen.Pre_finite_inputs
import proofs.«165334_j2345052144206_1_alg».proof.Proof.Net
import proofs.«165334_j2345052144206_1_alg».proof.Proof.RefNet
import Idealize.ShloMosaic.Adequacy
import Idealize.ShloMosaic.Init

noncomputable section

namespace Cert.Proof

open Idealize.ShloMosaic Idealize.SL.Sem

/-- The word-level kernel runs, faults nowhere, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end with the network of those arguments in their
    result buffers. -/
theorem algebraic : Cert.algebraic_KernelIdeal_ReferenceIdeal := by
  intro m ρ m' ρ' _ hagree
  refine ⟨_, Cert.KernelIdeal.Result.run_net m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  rw [Cert.ReferenceIdeal.Read.val_main_v98_eq, Cert.Gcn.ref_is_net, g0, g1, g2, g3, g4, g5, g6, g7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
